-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64x1x1x2 : Shape := ⟨5, ![131072, 64, 1, 1, 2]⟩
abbrev S_ : Shape := ⟨0, ![]⟩

class Facts : Prop where
  bcast_S_S131072x64x1x1x2 : S_.BroadcastsInDim S131072x64x1x1x2 (![] : Fin 0 → Fin S131072x64x1x1x2.rank)
  reducesTo_S131072x64x1x1x2_S_d0_1_2_3_4 : S131072x64x1x1x2.ReducesTo [0, 1, 2, 3, 4] S_
  h_S_ : 0 < S_.numel

variable [Facts]

def fn {F : FTy → Type} [FloatOps F] (main_arg0 : FVec F S131072x64x1x1x2 .f32) : IVec S_ 1 :=
  let main_v0 : FVec F S131072x64x1x1x2 .f32 := Host.absf main_arg0
  let main_cst : FVec F S_ .f32 := constant S_ .f32 0x7F800000#32
  let main_v1 : FVec F S131072x64x1x1x2 .f32 := broadcastInDim S131072x64x1x1x2 ![] bcast_S_S131072x64x1x1x2 main_cst
  let main_v2 : IVec S131072x64x1x1x2 1 := cmpf .olt main_v0 main_v1
  let main_c : IVec S_ 1 := constantI S_ 1 1#1
  let main_v3 : IVec S_ 1 := (fun x v => Host.reduce IntOp.andi x v reducesTo_S131072x64x1x1x2_S_d0_1_2_3_4 h_S_) main_v2 main_c
  main_v3
-- ==== Kernel.lean ====
abbrev S131072x64x1x1x2 : Shape := ⟨5, ![131072, 64, 1, 1, 2]⟩
abbrev S131072x128 : Shape := ⟨2, ![131072, 128]⟩
abbrev S8192x16x128 : Shape := ⟨3, ![8192, 16, 128]⟩
abbrev S8192x128 : Shape := ⟨2, ![8192, 128]⟩
abbrev S1x1 : Shape := ⟨2, ![1, 1]⟩
abbrev S512x16x128 : Shape := ⟨3, ![512, 16, 128]⟩
abbrev S512x128 : Shape := ⟨2, ![512, 128]⟩
abbrev S512x1x128 : Shape := ⟨3, ![512, 1, 128]⟩
abbrev S512x16 : Shape := ⟨2, ![512, 16]⟩
abbrev S512 : Shape := ⟨1, ![512]⟩
abbrev S512x1 : Shape := ⟨2, ![512, 1]⟩
abbrev S1 : Shape := ⟨1, ![1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩

abbrev nBuf : Space → Nat
  | .hbm => 17
  | .vmem => 12
  | .smem => 0
  | _ => 0

abbrev bufTy : (tb : Table) → Fin (tcTables nBuf tb) → BufTy
  | .hbm, ⟨0, _⟩ => ⟨S131072x64x1x1x2, .f32⟩
  | .hbm, ⟨1, _⟩ => ⟨S131072x128, .f32⟩
  | .hbm, ⟨2, _⟩ => ⟨S8192x16x128, .f32⟩
  | .hbm, ⟨3, _⟩ => ⟨S8192x128, .f32⟩
  | .hbm, ⟨4, _⟩ => ⟨S1x1, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x16x128, .f32⟩
  | .local _ .vmem, ⟨1, _⟩ => ⟨S512x16x128, .f32⟩
  | .local _ .vmem, ⟨2, _⟩ => ⟨S512x128, .f32⟩
  | .local _ .vmem, ⟨3, _⟩ => ⟨S512x128, .f32⟩
  | .local _ .vmem, ⟨4, _⟩ => ⟨S1x1, .f32⟩
  | .local _ .vmem, ⟨5, _⟩ => ⟨S128x128, .f32⟩
  | .local _ .vmem, ⟨6, _⟩ => ⟨S128x128, .f32⟩
  | .local _ .vmem, ⟨7, _⟩ => ⟨S8192x128, .f32⟩
  | .local _ .vmem, ⟨8, _⟩ => ⟨S128x1, .f32⟩
  | .local _ .vmem, ⟨9, _⟩ => ⟨S128x1, .f32⟩
  | .local _ .vmem, ⟨10, _⟩ => ⟨S1x8192, .f32⟩
  | .local _ .vmem, ⟨11, _⟩ => ⟨S1x1, .f32⟩
  | _, _ => ⟨S131072x64x1x1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S131072x64x1x1x2_S131072x128 : S131072x64x1x1x2.ShapeCasts S131072x128
  shapeCasts_S131072x128_S8192x16x128 : S131072x128.ShapeCasts S8192x16x128
  inb_S512x16x128_S512x16x128_0_0_0 : ∀ a, (![0, 0, 0] : Fin 3 → Nat) a + S512x16x128.size a ≤ S512x16x128.size a
  h_S512x16x128 : 0 < S512x16x128.numel
  shapeCasts_S512x16x128_S512x16x128 : S512x16x128.ShapeCasts S512x16x128
  reduces_S512x16x128_S512x128 : S512x16x128.Reduces [1] S512x128
  inb_S512x128_S512x128_0_0 : ∀ a, (![0, 0] : Fin 2 → Nat) a + S512x128.size a ≤ S512x128.size a
  h_S512x128 : 0 < S512x128.numel
  shapeCasts_S512x128_S512x1x128 : S512x128.ShapeCasts S512x1x128
  broadcasts_S512x1x128_S512x16x128 : S512x1x128.Broadcasts S512x16x128
  reduces_S512x16x128_S512x16 : S512x16x128.Reduces [2] S512x16
  reduces_S512x16_S512 : S512x16.Reduces [1] S512
  shapeCasts_S512_S512x1 : S512.ShapeCasts S512x1
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reducesTo_S8192x128_S8192_d1 : S8192x128.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x1_d0_w32 : S128x1.Iotas .tc 32 [0]
  iota_S1x8192_d1_w32 : S1x8192.Iotas .tc 32 [1]
  reduces_S128x8192_S128 : S128x8192.Reduces [1] S128
  shapeCasts_S128_S128x1 : S128.ShapeCasts S128x1
  reduces_S128x1_S1 : S128x1.Reduces [0] S1
  shapeCasts_S1x1_S_ : S1x1.ShapeCasts S_
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x128.size a ≤ S8192x16x128.size a
  hwx0_0 : ∀ i : grid0.Coords, EltTy.bits .f32 = 32 ∨ (Rect.block (s := S8192x16x128) S512x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S8192x128.size a
  hwx1_0 : ∀ i : grid1.Coords, EltTy.bits .f32 = 32 ∨ (Rect.block (s := S8192x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S8192x1.size a
  hwx1_2 : ∀ i : grid1.Coords, EltTy.bits .f32 = 32 ∨ (Rect.block (s := S8192x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_v1) S512x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S512x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S131072x64x1x1x2 : Shape := ⟨5, ![131072, 64, 1, 1, 2]⟩
abbrev S131072x128 : Shape := ⟨2, ![131072, 128]⟩
abbrev S8192x16x128 : Shape := ⟨3, ![8192, 16, 128]⟩
abbrev S_ : Shape := ⟨0, ![]⟩
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S8192x1x128 : Shape := ⟨3, ![8192, 1, 128]⟩
abbrev S8192x16 : Shape := ⟨2, ![8192, 16]⟩

abbrev nBuf : Space → Nat
  | .hbm => 74
  | .vmem => 0
  | .smem => 0
  | _ => 0

abbrev bufTy : (tb : Table) → Fin (tcTables nBuf tb) → BufTy
  | .hbm, ⟨0, _⟩ => ⟨S131072x64x1x1x2, .f32⟩
  | .hbm, ⟨1, _⟩ => ⟨S131072x128, .f32⟩
  | .hbm, ⟨2, _⟩ => ⟨S8192x16x128, .f32⟩
  | .hbm, ⟨3, _⟩ => ⟨S_, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S_, .f32⟩
  | .hbm, ⟨10, _⟩ => ⟨S8192, .f32⟩
  | .hbm, ⟨11, _⟩ => ⟨S128x8192, .f32⟩
  | .hbm, ⟨12, _⟩ => ⟨S8192x8192, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .i1⟩
  | .hbm, ⟨26, _⟩ => ⟨S8192x8192, .i1⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .i1⟩
  | .hbm, ⟨34, _⟩ => ⟨S8192x8192, .i1⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x1x128, .f32⟩
  | .hbm, ⟨57, _⟩ => ⟨S8192x16x128, .f32⟩
  | .hbm, ⟨58, _⟩ => ⟨S8192x16x128, .f32⟩
  | .hbm, ⟨59, _⟩ => ⟨S8192x16x128, .f32⟩
  | .hbm, ⟨60, _⟩ => ⟨S_, .f32⟩
  | .hbm, ⟨61, _⟩ => ⟨S8192x16, .f32⟩
  | .hbm, ⟨62, _⟩ => ⟨S8192x16, .f32⟩
  | .hbm, ⟨63, _⟩ => ⟨S_, .f32⟩
  | .hbm, ⟨64, _⟩ => ⟨S8192x16, .f32⟩
  | .hbm, ⟨65, _⟩ => ⟨S8192x16, .f32⟩
  | .hbm, ⟨66, _⟩ => ⟨S_, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S131072x64x1x1x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v20 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_call2_v0 : Ref sig .tc := ⟨.hbm, 49, rfl⟩
abbrev main_call2_v1 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  shapeCasts_S131072x64x1x1x2_S131072x128 : S131072x64x1x1x2.ShapeCasts S131072x128
  shapeCasts_S131072x128_S8192x16x128 : S131072x128.ShapeCasts S8192x16x128
  reducesTo_S8192x16x128_S8192x128_d1 : S8192x16x128.ReducesTo [1] S8192x128
  h_S_ : 0 < S_.numel
  bcast_S_S8192x128 : S_.BroadcastsInDim S8192x128 (![] : Fin 0 → Fin S8192x128.rank)
  reducesTo_S8192x128_S8192_d1 : S8192x128.ReducesTo [1] S8192
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  bcast_S8192x128_S8192x1x128_0_2 : S8192x128.BroadcastsInDim S8192x1x128 (![0, 2] : Fin 2 → Fin S8192x1x128.rank)
  bcast_S8192x1x128_S8192x16x128_0_1_2 : S8192x1x128.BroadcastsInDim S8192x16x128 (![0, 1, 2] : Fin 3 → Fin S8192x16x128.rank)
  reducesTo_S8192x16x128_S8192x16_d2 : S8192x16x128.ReducesTo [2] S8192x16
  bcast_S_S8192x16 : S_.BroadcastsInDim S8192x16 (![] : Fin 0 → Fin S8192x16.rank)
  reducesTo_S8192x16_S_d0_1 : S8192x16.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Region0Runs.lean ====
/-
  The first kernel on any staging memrefs, in its two control cases.

  The kernel reads a tile of 512 groups, stores the tile's means over the whole of its second buffer, and adds the
  tile's sum of squared excesses into a one-element accumulator, which it first clears when the grid coordinate is
  zero. So there are two cases: at the first point the accumulator's old contents are never used (it is cleared before
  it is read); at every later point they are the running sum. In each case the run records, as its witness, the list
  of stores each output buffer ends with.
-/
import proofs.«117935_j33621003993451_1_alg».proof.Proof.Gen.Kernel.Launch
import proofs.«117935_j33621003993451_1_alg».proof.Proof.Gen.Kernel.Skeleton
import proofs.«117935_j33621003993451_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared at this grid coordinate: the body's test, `coordinate = 0`, as it computes it. -/
abbrev clears0 (i : grid0.Coords) : Prop :=
  (Scalar.cmpi .ne (Scalar.extui (Scalar.cmpi .eq (BitVec.ofNat 32 (i 0).val) 0#32)) 0#32) = 1#1

/-- Over the sixteen points it holds at the first only. -/
theorem clears0_iff : ∀ t : Fin cfg0.N, clears0 (grid0.coords t) ↔ t.val % 16 = 0 :=
  (by decide +kernel : ∀ t : Fin grid0.N, clears0 (grid0.coords t) ↔ t.val % 16 = 0)

/-- The means' buffer and the accumulator's, through which their contents are stated. -/
abbrev viewMeans : View sig .tc .vmem S512x128 .f32 := (Memref.whole cc0_stg1_0 : Memref sig .tc .vmem S512x128 .f32).view
abbrev viewAcc0 : View sig .tc .vmem S1x1 .f32 := (Memref.whole cc0_stg2_0 : Memref sig .tc .vmem S1x1 .f32).view

/-- Each window's current staging memref at a point, as the pipeline passes it, and its wholeness. -/
abbrev mr0_0 (t : Fin cfg0.N) : Memref sig .tc .vmem S512x16x128 .f32 := win0_0.stage (cfg0.slots t 0)
abbrev hmr0_0 (t : Fin cfg0.N) : (mr0_0 t).IsWhole := hstage0_0 ((cfg0.slots t 0).cast nbuf0_0)
abbrev mr0_1 (t : Fin cfg0.N) : Memref sig .tc .vmem S512x128 .f32 := win0_1.stage (cfg0.slots t 1)
abbrev hmr0_1 (t : Fin cfg0.N) : (mr0_1 t).IsWhole := hstage0_1 ((cfg0.slots t 1).cast nbuf0_1)
abbrev mr0_2 (t : Fin cfg0.N) : Memref sig .tc .vmem S1x1 .f32 := win0_2.stage (cfg0.slots t 2)
abbrev hmr0_2 (t : Fin cfg0.N) : (mr0_2 t).IsWhole := hstage0_2 ((cfg0.slots t 2).cast nbuf0_2)

set_option maxHeartbeats 2000000 in
/-- THE FIRST POINT. With the tile at `x0` and both outputs at anything, the body runs, leaving the tile as it was and
    each output with the recorded stores written. -/
noncomputable def run0_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) :
    Σ' (L1 : List (View.Piece (Elt F) S512x128 .f32)) (L2 : List (View.Piece (Elt F) S1x1 .f32)),
      PLift (∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc0__center_intra_kernel i arg1 harg1 arg2 harg2 arg3 harg3) K) := by
  refine ⟨?_, ?_, ⟨fun E K => ?run⟩⟩
  case run =>
    simp only [cc0__center_intra_kernel_eq_skeleton]; unfold cc0__center_intra_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc)
    sl_step
    iapply Hk
    isplitl [H0]
    · iexists _; isplitr; · ipureintro; exact harg1.read_unread _
      iexact H0
    isplitl [H1]
    · iexists _; iexact H1
    iexists _; iexact H2

set_option maxHeartbeats 2000000 in
/-- EVERY LATER POINT. With the tile at `x0`, the means' buffer at anything and the accumulator at its running
    contents `acc`, the body runs, leaving the tile as it was and each output with the recorded stores written. -/
noncomputable def run0_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) :
    Σ' (L1 : List (View.Piece (Elt F) S512x128 .f32)) (L2 : List (View.Piece (Elt F) S1x1 .f32)),
      PLift (∀ (E : Set ℕ) (K : PUnit → sProp 𝕄),
        iprop(owns (c : Thread nD τ) arg1 fullShare x0 ∗ (∃ d, owns (c : Thread nD τ) arg2 fullShare d) ∗ owns (c : Thread nD τ) arg3 fullShare acc
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc0__center_intra_kernel i arg1 harg1 arg2 harg2 arg3 harg3) K) := by
  refine ⟨?_, ?_, ⟨fun E K => ?run⟩⟩
  case run =>
    simp only [cc0__center_intra_kernel_eq_skeleton]; unfold cc0__center_intra_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc)
    sl_step
    iapply Hk
    isplitl [H0]
    · iexists _; isplitr; · ipureintro; exact harg1.read_unread _
      iexact H0
    isplitl [H1]
    · iexists _; iexact H1
    iexists _; iexact H2

end Cert.Kernel.Hand

end
-- ==== Proof.K.Region0.lean ====
/-
  The first kernel's pipeline at the contents `V` its region is entered with: what each window's staging buffer holds
  after the body at every grid point, and the body's obligation.

  The tile window holds its block of the grouped samples. The means' window holds, after the body, the stores the
  run recorded for it (the tile's means). The accumulator's window is never written back before the last point, so
  what the body finds in it at a later point is what the body left at the point before: its contents are defined by
  recursion on the point, the first point's from the clearing case, every later one's from the adding case applied
  to the previous contents.
-/
import proofs.«117935_j33621003993451_1_alg».proof.Proof.K.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data over `V` whose body leaves
    the block in place. -/
theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-! ## What each case leaves in the two outputs -/

theorem coverMeans_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) (y : S512x128.Idx) :
    ∃ pc ∈ (run0_first c i arg1 harg1 arg2 harg2 arg3 harg3 hc x0).1, y ∈ pc.1.set :=
  View.cover_of_tiledL (run0_first c i arg1 harg1 arg2 harg2 arg3 harg3 hc x0).1 S512x128.size (by sl_kernel_rfl) y

theorem coverAcc_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) (y : S1x1.Idx) :
    ∃ pc ∈ (run0_first c i arg1 harg1 arg2 harg2 arg3 harg3 hc x0).2.1, y ∈ pc.1.set :=
  View.cover_of_tiledL (run0_first c i arg1 harg1 arg2 harg2 arg3 harg3 hc x0).2.1 S1x1.size (by sl_kernel_rfl) y

theorem coverMeans_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) (y : S512x128.Idx) :
    ∃ pc ∈ (run0_later c i arg1 harg1 arg2 harg2 arg3 harg3 hc x0 acc).1, y ∈ pc.1.set :=
  View.cover_of_tiledL (run0_later c i arg1 harg1 arg2 harg2 arg3 harg3 hc x0 acc).1 S512x128.size (by sl_kernel_rfl) y

theorem coverAcc_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) (y : S1x1.Idx) :
    ∃ pc ∈ (run0_later c i arg1 harg1 arg2 harg2 arg3 harg3 hc x0 acc).2.1, y ∈ pc.1.set :=
  View.cover_of_tiledL (run0_later c i arg1 harg1 arg2 harg2 arg3 harg3 hc x0 acc).2.1 S1x1.size (by sl_kernel_rfl) y

/-- The means' buffer after the first point's body: its recorded stores read back. -/
def means_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) : Vec F S512x128 .f32 :=
  viewMeans.read (Elt F) (viewMeans.writes (Elt F) viewMeans.junk (run0_first c i arg1 harg1 arg2 harg2 arg3 harg3 hc x0).1)

/-- The accumulator after the first point's body. -/
def acc_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) : Vec F S1x1 .f32 :=
  viewAcc0.read (Elt F) (viewAcc0.writes (Elt F) viewAcc0.junk (run0_first c i arg1 harg1 arg2 harg2 arg3 harg3 hc x0).2.1)

/-- The means' buffer after a later point's body. -/
def means_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) : Vec F S512x128 .f32 :=
  viewMeans.read (Elt F) (viewMeans.writes (Elt F) viewMeans.junk (run0_later c i arg1 harg1 arg2 harg2 arg3 harg3 hc x0 acc).1)

/-- The accumulator after a later point's body, from its contents `acc` before it. -/
def acc_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) : Vec F S1x1 .f32 :=
  viewAcc0.read (Elt F) (viewAcc0.writes (Elt F) viewAcc0.junk (run0_later c i arg1 harg1 arg2 harg2 arg3 harg3 hc x0 acc).2.1)

/-! ## Point by point -/

/-- THE RUNNING SUM. What the accumulator's buffer holds after the body at position `n`. -/
def accAt0 (c : Dev nD) : (n : ℕ) → n < cfg0.N → Vec F S1x1 .f32
  | 0, hn => acc_first c (grid0.coords ⟨0, hn⟩) (mr0_0 ⟨0, hn⟩) (hmr0_0 ⟨0, hn⟩) (mr0_1 ⟨0, hn⟩) (hmr0_1 ⟨0, hn⟩) (mr0_2 ⟨0, hn⟩) (hmr0_2 ⟨0, hn⟩) ((clears0_iff ⟨0, hn⟩).mpr (Nat.zero_mod _)) (tile0 V c 0 ⟨0, hn⟩)
  | n + 1, hn =>
    if h0 : (n + 1) % 16 = 0 then
      acc_first c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) ((clears0_iff ⟨n + 1, hn⟩).mpr h0) (tile0 V c 0 ⟨n + 1, hn⟩)
    else
      acc_later c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (fun h => h0 ((clears0_iff ⟨n + 1, hn⟩).mp h)) (tile0 V c 0 ⟨n + 1, hn⟩) (accAt0 c n (Nat.lt_of_succ_lt hn))

theorem accAt0_first (c : Dev nD) (t : Fin cfg0.N) (h0 : t.val % 16 = 0) :
    accAt0 V c t.val t.isLt = acc_first c (grid0.coords t) (mr0_0 t) (hmr0_0 t) (mr0_1 t) (hmr0_1 t) (mr0_2 t) (hmr0_2 t) ((clears0_iff t).mpr h0) (tile0 V c 0 t) := by
  obtain ⟨n, hn⟩ := t
  cases n with
  | zero => exact rfl
  | succ n => exact (dif_pos h0).trans rfl

theorem accAt0_later (c : Dev nD) (t : Fin cfg0.N) (h0 : ¬t.val % 16 = 0) :
    accAt0 V c t.val t.isLt = acc_later c (grid0.coords t) (mr0_0 t) (hmr0_0 t) (mr0_1 t) (hmr0_1 t) (mr0_2 t) (hmr0_2 t) (fun h => h0 ((clears0_iff t).mp h)) (tile0 V c 0 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the means' buffer holds after the body at point `t`. -/
def meansAt0 (c : Dev nD) (t : Fin cfg0.N) : Vec F S512x128 .f32 :=
  if h0 : t.val % 16 = 0 then
    means_first c (grid0.coords t) (mr0_0 t) (hmr0_0 t) (mr0_1 t) (hmr0_1 t) (mr0_2 t) (hmr0_2 t) ((clears0_iff t).mpr h0) (tile0 V c 0 t)
  else
    means_later c (grid0.coords t) (mr0_0 t) (hmr0_0 t) (mr0_1 t) (hmr0_1 t) (mr0_2 t) (hmr0_2 t) (fun h => h0 ((clears0_iff t).mp h)) (tile0 V c 0 t)
      (accAt0 V c (t.val - 1) (Nat.lt_of_le_of_lt (Nat.sub_le _ _) t.isLt))

theorem meansAt0_first (c : Dev nD) (t : Fin cfg0.N) (h0 : t.val % 16 = 0) :
    meansAt0 V c t = means_first c (grid0.coords t) (mr0_0 t) (hmr0_0 t) (mr0_1 t) (hmr0_1 t) (mr0_2 t) (hmr0_2 t) ((clears0_iff t).mpr h0) (tile0 V c 0 t) := dif_pos h0

theorem meansAt0_later (c : Dev nD) (t : Fin cfg0.N) (h0 : ¬t.val % 16 = 0) :
    meansAt0 V c t = means_later c (grid0.coords t) (mr0_0 t) (hmr0_0 t) (mr0_1 t) (hmr0_1 t) (mr0_2 t) (hmr0_2 t) (fun h => h0 ((clears0_iff t).mp h)) (tile0 V c 0 t)
      (accAt0 V c (t.val - 1) (Nat.lt_of_le_of_lt (Nat.sub_le _ _) t.isLt)) := dif_neg h0

/-! ## The proof data -/

/-- The first pipeline's proof data on core `c`: the arrays as the region finds them; after the body each window's
    buffer as above; the invariant the scoped buffers it does not stage and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => meansAt0 V c t
    | ⟨2, _⟩ => accAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = meansAt0 V c t := by dsimp only [dat0]
theorem after0_2 (c : Dev nD) (t : Fin cfg0.N) : (dat0 V c).after 2 t = accAt0 V c t.val t.isLt := by dsimp only [dat0]

theorem found0_0 (c : Dev nD) (t : Fin cfg0.N) (d) : (dat0 V c).before 0 t d = tile0 V c 0 t :=
  found0_0_of V (dat0 V c) (A_eq0 V c 0) (after0_0 V c) t d

/-- At a later point the accumulator's buffer holds what the body left at the point before: the buffer is not written
    back in between. -/
theorem found0_2_later (c : Dev nD) (t : Fin cfg0.N) (h0 : ¬t.val % 16 = 0) (d) :
    (dat0 V c).before 2 t d = accAt0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (mr0_0 t) fullShare ((dat0 V c).after 0 t)
    ∗ owns (c : Thread nD τ) (mr0_1 t) fullShare ((dat0 V c).after 1 t)
    ∗ owns (c : Thread nD τ) (mr0_2 t) fullShare ((dat0 V c).after 2 t))

set_option maxHeartbeats 1600000 in
/-- The body at any point: the tile's buffer holds its block; the point's position says which case it is in; at a
    later point the accumulator holds the previous running sum; so that case's run applies, and what it leaves is
    read back through each output's stores. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [accAt0_first V c t h0, meansAt0_first V c t h0]
    unfold means_first acc_first
    iintro ⟨HΦ, Ho, ⟨%d0, H0⟩, ⟨%d1, H1⟩, ⟨%d2, H2⟩⟩
    iapply ((run0_first c (grid0.coords t) _ _ _ _ _ _ ((clears0_iff t).mpr h0) (tile0 V c 0 t)).2.2.down Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverMeans_first c _ _ _ _ _ _ _ _ _)
    · unfold owns; iexists _; isplitr
      swap; · iexact H2
      ipureintro; exact View.read_writes_of_cover _ _ _ _ _ (coverAcc_first c _ _ _ _ _ _ _ _ _)
  · rw [accAt0_later V c t h0, meansAt0_later V c t h0]
    simp only [found0_2_later V c t h0]
    unfold means_later acc_later
    iintro ⟨HΦ, Ho, ⟨%d0, H0⟩, ⟨%d1, H1⟩, ⟨%d2, H2⟩⟩
    iapply ((run0_later c (grid0.coords t) _ _ _ _ _ _ (fun h => h0 ((clears0_iff t).mp h)) (tile0 V c 0 t) _).2.2.down Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverMeans_later c _ _ _ _ _ _ _ _ _ _)
    · unfold owns; iexists _; isplitr
      swap; · iexact H2
      ipureintro; exact View.read_writes_of_cover _ _ _ _ _ (coverAcc_later c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/-
  The second kernel on any staging memrefs, in its two control cases.

  At a grid point the kernel reads 128 rows of the centres, all the centres, the rows' squared norms and all squared
  norms, forms the pairs' terms of those rows against every column, and adds their sum into a one-element
  accumulator, which it first clears when the grid coordinate is zero. As for the first kernel there are two cases:
  at the first point the accumulator's old contents are never used; at every later point they are the running sum.
  The run records, as its witness, the list of stores the accumulator's buffer ends with.
-/
import proofs.«117935_j33621003993451_1_alg».proof.Proof.Gen.Kernel.Launch
import proofs.«117935_j33621003993451_1_alg».proof.Proof.Gen.Kernel.Skeleton
import proofs.«117935_j33621003993451_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared at this grid coordinate: the body's test, `coordinate = 0`, as it computes it. -/
abbrev clears1 (i : grid1.Coords) : Prop :=
  (Scalar.cmpi .ne (Scalar.extui (Scalar.cmpi .eq (BitVec.ofNat 32 (i 0).val) 0#32)) 0#32) = 1#1

/-- Over the sixty-four points it holds at the first only. -/
theorem clears1_iff : ∀ t : Fin cfg1.N, clears1 (grid1.coords t) ↔ t.val % 64 = 0 :=
  (by decide +kernel : ∀ t : Fin grid1.N, clears1 (grid1.coords t) ↔ t.val % 64 = 0)

/-- The accumulator's buffer, through which its contents are stated. -/
abbrev viewAcc1 : View sig .tc .vmem S1x1 .f32 := (Memref.whole cc1_stg4_0 : Memref sig .tc .vmem S1x1 .f32).view

/-- Each window's current staging memref at a point, as the pipeline passes it, and its wholeness. -/
abbrev mr1_0 (t : Fin cfg1.N) : Memref sig .tc .vmem S128x128 .f32 := win1_0.stage (cfg1.slots t 0)
abbrev hmr1_0 (t : Fin cfg1.N) : (mr1_0 t).IsWhole := hstage1_0 ((cfg1.slots t 0).cast nbuf1_0)
abbrev mr1_1 (t : Fin cfg1.N) : Memref sig .tc .vmem S8192x128 .f32 := win1_1.stage (cfg1.slots t 1)
abbrev hmr1_1 (t : Fin cfg1.N) : (mr1_1 t).IsWhole := hstage1_1 ((cfg1.slots t 1).cast nbuf1_1)
abbrev mr1_2 (t : Fin cfg1.N) : Memref sig .tc .vmem S128x1 .f32 := win1_2.stage (cfg1.slots t 2)
abbrev hmr1_2 (t : Fin cfg1.N) : (mr1_2 t).IsWhole := hstage1_2 ((cfg1.slots t 2).cast nbuf1_2)
abbrev mr1_3 (t : Fin cfg1.N) : Memref sig .tc .vmem S1x8192 .f32 := win1_3.stage (cfg1.slots t 3)
abbrev hmr1_3 (t : Fin cfg1.N) : (mr1_3 t).IsWhole := hstage1_3 ((cfg1.slots t 3).cast nbuf1_3)
abbrev mr1_4 (t : Fin cfg1.N) : Memref sig .tc .vmem S1x1 .f32 := win1_4.stage (cfg1.slots t 4)
abbrev hmr1_4 (t : Fin cfg1.N) : (mr1_4 t).IsWhole := hstage1_4 ((cfg1.slots t 4).cast nbuf1_4)

set_option maxHeartbeats 2000000 in
/-- THE FIRST POINT. With the four inputs at their contents and the accumulator at anything, the body runs, leaving
    the inputs as they were and the accumulator with the recorded stores written. -/
noncomputable def run1_first (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E (cc1__inter_kernel i arg1 harg1 arg2 harg2 arg3 harg3 arg4 harg4 arg5 harg5) K } := by
  refine ⟨?_, fun E K => ?run⟩
  case run =>
    simp only [cc1__inter_kernel_eq_skeleton]; unfold cc1__inter_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- EVERY LATER POINT. With the four inputs at their contents and the accumulator at its running contents `acc`, the
    body runs, leaving the inputs as they were and the accumulator with the recorded stores written. -/
noncomputable def run1_later (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare acc
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E (cc1__inter_kernel i arg1 harg1 arg2 harg2 arg3 harg3 arg4 harg4 arg5 harg5) K } := by
  refine ⟨?_, fun E K => ?run⟩
  case run =>
    simp only [cc1__inter_kernel_eq_skeleton]; unfold cc1__inter_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.K.Region1.lean ====
/-
  The second kernel's pipeline at the contents `V` its region is entered with: what each window's staging buffer holds
  after the body at every grid point, and the body's obligation.

  The four input windows hold their blocks — 128 rows of the centres and of the squared norms, which move with the
  point, and all the centres and all the squared norms, which are fetched once and stay. The rows and the whole of the
  centres are two windows on ONE array, so the pipeline holds that array in two halves, one per window. The
  accumulator's window is written back at the last point only, so its contents are defined by recursion on the point
  as for the first kernel.
-/
import proofs.«117935_j33621003993451_1_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not, for any proof data over
    `V` whose body leaves the block in place. -/
theorem found1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)

/-! ## What each case leaves in the accumulator -/

theorem coverAcc1_first (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) (y : S1x1.Idx) :
    ∃ pc ∈ (run1_first c i arg1 harg1 arg2 harg2 arg3 harg3 arg4 harg4 arg5 harg5 hc x0 x1 x2 x3).1, y ∈ pc.1.set :=
  View.cover_of_tiledL (run1_first c i arg1 harg1 arg2 harg2 arg3 harg3 arg4 harg4 arg5 harg5 hc x0 x1 x2 x3).1 S1x1.size (by sl_kernel_rfl) y

theorem coverAcc1_later (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) (y : S1x1.Idx) :
    ∃ pc ∈ (run1_later c i arg1 harg1 arg2 harg2 arg3 harg3 arg4 harg4 arg5 harg5 hc x0 x1 x2 x3 acc).1, y ∈ pc.1.set :=
  View.cover_of_tiledL (run1_later c i arg1 harg1 arg2 harg2 arg3 harg3 arg4 harg4 arg5 harg5 hc x0 x1 x2 x3 acc).1 S1x1.size (by sl_kernel_rfl) y

/-- The accumulator after the first point's body: its recorded stores read back. -/
def acc1_first (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) : Vec F S1x1 .f32 :=
  viewAcc1.read (Elt F) (viewAcc1.writes (Elt F) viewAcc1.junk (run1_first c i arg1 harg1 arg2 harg2 arg3 harg3 arg4 harg4 arg5 harg5 hc x0 x1 x2 x3).1)

/-- The accumulator after a later point's body, from its contents `acc` before it. -/
def acc1_later (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) : Vec F S1x1 .f32 :=
  viewAcc1.read (Elt F) (viewAcc1.writes (Elt F) viewAcc1.junk (run1_later c i arg1 harg1 arg2 harg2 arg3 harg3 arg4 harg4 arg5 harg5 hc x0 x1 x2 x3 acc).1)

/-- THE RUNNING SUM. What the accumulator's buffer holds after the body at position `n`. -/
def accAt1 (c : Dev nD) : (n : ℕ) → n < cfg1.N → Vec F S1x1 .f32
  | 0, hn => acc1_first c (grid1.coords ⟨0, hn⟩) (mr1_0 ⟨0, hn⟩) (hmr1_0 ⟨0, hn⟩) (mr1_1 ⟨0, hn⟩) (hmr1_1 ⟨0, hn⟩) (mr1_2 ⟨0, hn⟩) (hmr1_2 ⟨0, hn⟩) (mr1_3 ⟨0, hn⟩) (hmr1_3 ⟨0, hn⟩) (mr1_4 ⟨0, hn⟩) (hmr1_4 ⟨0, hn⟩) ((clears1_iff ⟨0, hn⟩).mpr (Nat.zero_mod _)) (tile1 V c 0 ⟨0, hn⟩) (tile1 V c 1 ⟨0, hn⟩) (tile1 V c 2 ⟨0, hn⟩) (tile1 V c 3 ⟨0, hn⟩)
  | n + 1, hn =>
    if h0 : (n + 1) % 64 = 0 then
      acc1_first c (grid1.coords ⟨n + 1, hn⟩) (mr1_0 ⟨n + 1, hn⟩) (hmr1_0 ⟨n + 1, hn⟩) (mr1_1 ⟨n + 1, hn⟩) (hmr1_1 ⟨n + 1, hn⟩) (mr1_2 ⟨n + 1, hn⟩) (hmr1_2 ⟨n + 1, hn⟩) (mr1_3 ⟨n + 1, hn⟩) (hmr1_3 ⟨n + 1, hn⟩) (mr1_4 ⟨n + 1, hn⟩) (hmr1_4 ⟨n + 1, hn⟩) ((clears1_iff ⟨n + 1, hn⟩).mpr h0) (tile1 V c 0 ⟨n + 1, hn⟩) (tile1 V c 1 ⟨n + 1, hn⟩) (tile1 V c 2 ⟨n + 1, hn⟩) (tile1 V c 3 ⟨n + 1, hn⟩)
    else
      acc1_later c (grid1.coords ⟨n + 1, hn⟩) (mr1_0 ⟨n + 1, hn⟩) (hmr1_0 ⟨n + 1, hn⟩) (mr1_1 ⟨n + 1, hn⟩) (hmr1_1 ⟨n + 1, hn⟩) (mr1_2 ⟨n + 1, hn⟩) (hmr1_2 ⟨n + 1, hn⟩) (mr1_3 ⟨n + 1, hn⟩) (hmr1_3 ⟨n + 1, hn⟩) (mr1_4 ⟨n + 1, hn⟩) (hmr1_4 ⟨n + 1, hn⟩) (fun h => h0 ((clears1_iff ⟨n + 1, hn⟩).mp h)) (tile1 V c 0 ⟨n + 1, hn⟩) (tile1 V c 1 ⟨n + 1, hn⟩) (tile1 V c 2 ⟨n + 1, hn⟩) (tile1 V c 3 ⟨n + 1, hn⟩) (accAt1 c n (Nat.lt_of_succ_lt hn))

theorem accAt1_first (c : Dev nD) (t : Fin cfg1.N) (h0 : t.val % 64 = 0) :
    accAt1 V c t.val t.isLt = acc1_first c (grid1.coords t) (mr1_0 t) (hmr1_0 t) (mr1_1 t) (hmr1_1 t) (mr1_2 t) (hmr1_2 t) (mr1_3 t) (hmr1_3 t) (mr1_4 t) (hmr1_4 t) ((clears1_iff t).mpr h0) (tile1 V c 0 t) (tile1 V c 1 t) (tile1 V c 2 t) (tile1 V c 3 t) := by
  obtain ⟨n, hn⟩ := t
  cases n with
  | zero => exact rfl
  | succ n => exact (dif_pos h0).trans rfl

theorem accAt1_later (c : Dev nD) (t : Fin cfg1.N) (h0 : ¬t.val % 64 = 0) :
    accAt1 V c t.val t.isLt = acc1_later c (grid1.coords t) (mr1_0 t) (hmr1_0 t) (mr1_1 t) (hmr1_1 t) (mr1_2 t) (hmr1_2 t) (mr1_3 t) (hmr1_3 t) (mr1_4 t) (hmr1_4 t) (fun h => h0 ((clears1_iff t).mp h)) (tile1 V c 0 t) (tile1 V c 1 t) (tile1 V c 2 t) (tile1 V c 3 t)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The second pipeline's proof data on core `c`: the arrays as the region finds them; after the body each input's
    buffer at its block and the accumulator's at the running sum; the invariant the scoped buffers it does not stage
    and the generator register, untouched; nothing owed; the centres' array held in two halves by the two windows
    that read it, the other arrays whole. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => accAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = accAt1 V c t.val t.isLt := by dsimp only [dat1]

theorem found1_0 (c : Dev nD) (t : Fin cfg1.N) (d) : (dat1 V c).before 0 t d = tile1 V c 0 t :=
  found1_0_of V (dat1 V c) (A_eq1 V c 0) (after1_0 V c) t d
theorem found1_1 (c : Dev nD) (t : Fin cfg1.N) (d) : (dat1 V c).before 1 t d = tile1 V c 1 t :=
  found1_1_of V (dat1 V c) (A_eq1 V c 1) (after1_1 V c) t d
theorem found1_2 (c : Dev nD) (t : Fin cfg1.N) (d) : (dat1 V c).before 2 t d = tile1 V c 2 t :=
  found1_2_of V (dat1 V c) (A_eq1 V c 2) (after1_2 V c) t d
theorem found1_3 (c : Dev nD) (t : Fin cfg1.N) (d) : (dat1 V c).before 3 t d = tile1 V c 3 t :=
  found1_3_of V (dat1 V c) (A_eq1 V c 3) (after1_3 V c) t d

/-- At a later point the accumulator's buffer holds what the body left at the point before. -/
theorem found1_4_later (c : Dev nD) (t : Fin cfg1.N) (h0 : ¬t.val % 64 = 0) (d) :
    (dat1 V c).before 4 t d = accAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mr1_0 t) fullShare ((dat1 V c).before 0 t d))
    ∗ (∃ d, owns (c : Thread nD τ) (mr1_1 t) fullShare ((dat1 V c).before 1 t d))
    ∗ (∃ d, owns (c : Thread nD τ) (mr1_2 t) fullShare ((dat1 V c).before 2 t d))
    ∗ (∃ d, owns (c : Thread nD τ) (mr1_3 t) fullShare ((dat1 V c).before 3 t d))
    ∗ (∃ d, owns (c : Thread nD τ) (mr1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (mr1_0 t) fullShare ((dat1 V c).after 0 t)
    ∗ owns (c : Thread nD τ) (mr1_1 t) fullShare ((dat1 V c).after 1 t)
    ∗ owns (c : Thread nD τ) (mr1_2 t) fullShare ((dat1 V c).after 2 t)
    ∗ owns (c : Thread nD τ) (mr1_3 t) fullShare ((dat1 V c).after 3 t)
    ∗ owns (c : Thread nD τ) (mr1_4 t) fullShare ((dat1 V c).after 4 t))

set_option maxHeartbeats 1600000 in
/-- The body at any point: the inputs' buffers hold their blocks; the point's position says which case it is in; at a
    later point the accumulator holds the previous running sum; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 64 = 0
  · rw [accAt1_first V c t h0]
    unfold acc1_first
    iintro ⟨HΦ, Ho, ⟨%d0, H0⟩, ⟨%d1, H1⟩, ⟨%d2, H2⟩, ⟨%d3, H3⟩, ⟨%d4, H4⟩⟩
    iapply ((run1_first c (grid1.coords t) _ _ _ _ _ _ _ _ _ _ ((clears1_iff t).mpr h0) (tile1 V c 0 t) (tile1 V c 1 t) (tile1 V c 2 t) (tile1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverAcc1_first c _ _ _ _ _ _ _ _ _ _ _ _ _ _ _ _)
  · rw [accAt1_later V c t h0]
    simp only [found1_4_later V c t h0]
    unfold acc1_later
    iintro ⟨HΦ, Ho, ⟨%d0, H0⟩, ⟨%d1, H1⟩, ⟨%d2, H2⟩, ⟨%d3, H3⟩, ⟨%d4, H4⟩⟩
    iapply ((run1_later c (grid1.coords t) _ _ _ _ _ _ _ _ _ _ (fun h => h0 ((clears1_iff t).mp h)) (tile1 V c 0 t) (tile1 V c 1 t) (tile1 V c 2 t) (tile1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverAcc1_later c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region1Arrays.lean ====
/-
  The second kernel's arrays at its region's entry and exit.

  The region is entered with every unscoped buffer of the core held whole. Four of them lie behind the kernel's five
  windows: the centres (read through two windows), the squared norms as a column, the squared norms as a row, and the
  one-element result. At entry the centres' buffer is split into two halves, one for each window that reads it, and
  the others go to their windows whole; at exit the halves are joined again, the inputs are as they were, and the
  result's buffer holds what the last write-back left.
-/
import proofs.«117935_j33621003993451_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the second kernel's windows. -/
theorem arrRefs1 : Finset.univ.image (Pipeline.arrRef (cfgs 1).spec) = ([main_v2_0, main_v5, main_v6, main_v7] : List (Ref sig .tc)).toFinset := by decide

theorem wholeSet1_0 : (cfg1.win 0).arr.view.set = Finset.univ := (Memref.isWhole_whole main_v2_0).set_eq_univ
theorem wholeSet1_1 : (cfg1.win 1).arr.view.set = Finset.univ := (Memref.isWhole_whole main_v2_0).set_eq_univ
theorem wholeSet1_2 : (cfg1.win 2).arr.view.set = Finset.univ := (Memref.isWhole_whole main_v5).set_eq_univ
theorem wholeSet1_3 : (cfg1.win 3).arr.view.set = Finset.univ := (Memref.isWhole_whole main_v6).set_eq_univ
theorem wholeSet1_4 : (cfg1.win 4).arr.view.set = Finset.univ := (Memref.isWhole_whole main_v7).set_eq_univ

/-- ENTRY. The core's unscoped buffers at `V` are the pipeline's arrays at their entry contents — the centres in two
    halves — and the buffers no window stages. -/
theorem entry1 (c : Dev nD) :
    (unscopedBufs c (V c) : sProp 𝕄) ⊢ iprop((dat1 V c).arrays (fun w => (dat1 V c).arrAt w 0) ∗ Pipeline.unscopedRest spec1 c (V c)) := by
  rw [Pipeline.unscopedBufs_split₀ cfgs 1 (by decide) c (V c)]
  refine sep_mono ?_ .rfl
  unfold Pipeline.arrBufs
  rw [bigSep_eq_bigSepL_of_eq [main_v2_0, main_v5, main_v6, main_v7] arrRefs1 (by decide)]
  unfold Dat.arrays
  rw [bigSep_W1, wholeSet1_0, wholeSet1_2, wholeSet1_3, wholeSet1_4]
  show (iprop((((c : Thread nD τ).loc main_v2_0) ↦{fullShare} V c main_v2_0) ∗ (((c : Thread nD τ).loc main_v5) ↦{fullShare} V c main_v5)
      ∗ (((c : Thread nD τ).loc main_v6) ↦{fullShare} V c main_v6) ∗ (((c : Thread nD τ).loc main_v7) ↦{fullShare} V c main_v7)) : sProp 𝕄)
    ⊢ iprop((((c : Thread nD τ).loc main_v2_0) ↦{fullShare.left} V c main_v2_0) ∗ (((c : Thread nD τ).loc main_v2_0) ↦{fullShare.right} V c main_v2_0)
      ∗ (((c : Thread nD τ).loc main_v5) ↦{fullShare} V c main_v5) ∗ (((c : Thread nD τ).loc main_v6) ↦{fullShare} V c main_v6)
      ∗ (((c : Thread nD τ).loc main_v7) ↦{fullShare} V c main_v7))
  iintro ⟨H2, H5, H6, H7⟩
  ihave Hs := (pointsTo_share (PosShare.mem_left_op_right fullShare)).1 $$ H2
  icases Hs with ⟨Hl, Hr⟩
  isplitl [Hl]; · iexact Hl
  isplitl [Hr]; · iexact Hr
  isplitl [H5]; · iexact H5
  isplitl [H6]; · iexact H6
  iexact H7

/-- EXIT. The pipeline's arrays at their final contents and the buffers no window stages are the core's unscoped
    buffers at any contents `V'` that has the result's buffer at what the write-backs left and agrees with `V`
    elsewhere: the inputs are never written, and the centres' two halves join. -/
theorem exit1 (V' : (c : Dev nD) → (b : Ref sig .tc) → Buf (Elt F) ((c : Thread nD τ).loc b)) (c : Dev nD)
    (h7 : V' c main_v7 = (dat1 V c).arrAt 4 cfg1.N) (hrest : ∀ b : Ref sig .tc, b ≠ main_v7 → V' c b = V c b) :
    iprop((dat1 V c).arrays (fun w => (dat1 V c).arrAt w cfg1.N) ∗ Pipeline.unscopedRest spec1 c (V c)) ⊢ (unscopedBufs c (V' c) : sProp 𝕄) := by
  rw [Pipeline.unscopedBufs_split₀ cfgs 1 (by decide) c (V' c)]
  refine sep_mono ?_ (Entails.of_eq ?_)
  · unfold Pipeline.arrBufs
    rw [bigSep_eq_bigSepL_of_eq [main_v2_0, main_v5, main_v6, main_v7] arrRefs1 (by decide)]
    unfold Dat.arrays
    rw [bigSep_W1, wholeSet1_0, wholeSet1_2, wholeSet1_3, wholeSet1_4]
    dsimp only
    rw [(dat1 V c).arrAt_in 0 rfl, (dat1 V c).arrAt_in 1 rfl, (dat1 V c).arrAt_in 2 rfl, (dat1 V c).arrAt_in 3 rfl, ← h7]
    show (iprop((((c : Thread nD τ).loc main_v2_0) ↦{fullShare.left} V c main_v2_0) ∗ (((c : Thread nD τ).loc main_v2_0) ↦{fullShare.right} V c main_v2_0)
        ∗ (((c : Thread nD τ).loc main_v5) ↦{fullShare} V c main_v5) ∗ (((c : Thread nD τ).loc main_v6) ↦{fullShare} V c main_v6)
        ∗ (((c : Thread nD τ).loc main_v7) ↦{fullShare} V' c main_v7)) : sProp 𝕄)
      ⊢ iprop((((c : Thread nD τ).loc main_v2_0) ↦{fullShare} V' c main_v2_0) ∗ (((c : Thread nD τ).loc main_v5) ↦{fullShare} V' c main_v5)
        ∗ (((c : Thread nD τ).loc main_v6) ↦{fullShare} V' c main_v6) ∗ (((c : Thread nD τ).loc main_v7) ↦{fullShare} V' c main_v7))
    rw [hrest main_v2_0 (by decide), hrest main_v5 (by decide), hrest main_v6 (by decide)]
    iintro ⟨Hl, Hr, H5, H6, H7⟩
    isplitl [Hl Hr]
    · iapply (pointsTo_share (PosShare.mem_left_op_right fullShare)).2
      isplitl [Hl]; · iexact Hl
      iexact Hr
    isplitl [H5]; · iexact H5
    isplitl [H6]; · iexact H6
    iexact H7
  · unfold Pipeline.unscopedRest
    exact bigSep_congr fun b hb => by
      rw [hrest b (fun h => (Finset.mem_sdiff.mp hb).2 (h ▸ Finset.mem_image.mpr ⟨4, Finset.mem_univ _, rfl⟩))]

end Cert.Kernel.Hand

end
-- ==== Proof.K.Run.lean ====
/-
  The whole run of @main: two host reshapes, the first kernel's region, the host stretch that forms the centres'
  squared norms, the second kernel's region, and the host stretch that divides the two sums by their counts.

  Between two of these five segments the core holds every unscoped buffer whole at known contents: the launch memory,
  then what each host stretch computes from what it finds, and at a region's exit the region's arrays at what its
  write-backs left with everything else unchanged. Each region is entered from the contents the segment before it
  left and hands on the contents the next one starts from; the launch threads them together. The conclusion names the
  contents of EVERY unscoped buffer in the final memory, from which both the unchanged argument and the two results
  are read.
-/
import proofs.«117935_j33621003993451_1_alg».proof.Proof.K.Region0
import proofs.«117935_j33621003993451_1_alg».proof.Proof.K.Region1Arrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two reshapes: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exitArr0 (c : Dev nD) (w : Fin cfg0.W) : (dat0 (V1 m ρ) c).arrAt w cfg0.N = V2 m ρ c (Pipeline.arrRef spec0 w) :=
  (W2_arr m ρ c w).symm
theorem exitRest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the squared norms' stretch: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: the result's buffer at what the last write-back left, every other buffer as entered
    (the region's other arrays are inputs). -/
def W4 (c : Dev nD) : Valuation τ sig (Elt F) :=
  Function.update (W3 m ρ c) (Proc.devRef .tc main_v7) ((dat1 (V3 m ρ) c).arrAt 4 cfg1.N)
abbrev V4 : (c : Dev nD) → (b : Ref sig .tc) → Buf (Elt F) ((c : Thread nD τ).loc b) := fun c b => W4 m ρ c b
theorem V4_result (c : Dev nD) : V4 m ρ c main_v7 = (dat1 (V3 m ρ) c).arrAt 4 cfg1.N := by
  show W4 m ρ c (Proc.devRef .tc main_v7) = _
  unfold W4; exact Function.update_self ..
theorem V4_rest (c : Dev nD) (b : Ref sig .tc) (hb : b ≠ main_v7) : V4 m ρ c b = V3 m ρ c b := by
  show W4 m ρ c (Proc.devRef .tc b) = W3 m ρ c (Proc.devRef .tc b)
  unfold W4; exact Function.update_of_ne (StableHlo.devRef_ne_of_ne hb) _ _
/-- After the last stretch: the end. -/
abbrev W5 : Dev nD → Valuation τ sig (Elt F) := fun c => StableHlo.after hostOps2 (W4 m ρ c)

/-- The argument ends as launched: no host operation writes it, and each region only reads the arrays it is given or
    writes its own results. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := V4_rest m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- The last thread state without what is owed: every unscoped buffer at the last contents, the generator register. -/
abbrev Tend (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- THE FIRST REGION: entered from every unscoped buffer at `W1`, left at `W2`. Its arrays are distinct buffers, split
    out of the unscoped buffers at entry and put back at exit. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered from every unscoped buffer at `W3`, left at `W4`. Two of its windows read one array,
    so its arrays are sorted out of the unscoped buffers, and put back, by this kernel's own entry and exit lemmas. -/
def reg1 : Pipeline.RegionSeg (pcfgs (F := F)) noTables (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) (V4 m ρ) c (V4_result m ρ c) (fun b hb => V4_rest m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) noTables (pdats m ρ) () defs₀ 𝒱₀ L lv) :=
  [ .host (hostSeg hostOps0 hostOps0_sub fresh0 (W0 m ρ)),
    .region (reg0 m ρ),
    .host (hostSeg hostOps1 hostOps1_sub fresh1 (W2 m ρ)),
    .region (reg1 m ρ),
    .host (hostSeg hostOps2 hostOps2_sub fresh2 (W4 m ρ)) ]

/-- @main is the run of the five segments. -/
theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters, every weakly fair execution of @main on the
    TensorCores terminates, nothing faulting, and in every final memory each unscoped buffer of each core holds the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tend m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, and the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

end Cert.Kernel.Hand

end
-- ==== Proof.KI.Region0Runs.lean ====
/-
  The first kernel on any staging memrefs, in its two control cases.

  The kernel reads a tile of 512 groups, stores the tile's means over the whole of its second buffer, and adds the
  tile's sum of squared excesses into a one-element accumulator, which it first clears when the grid coordinate is
  zero. So there are two cases: at the first point the accumulator's old contents are never used (it is cleared before
  it is read); at every later point they are the running sum. In each case the run records, as its witness, the list
  of stores each output buffer ends with.
-/
import proofs.«117935_j33621003993451_1_alg».proof.Proof.Gen.KernelIdeal.Launch
import proofs.«117935_j33621003993451_1_alg».proof.Proof.Gen.KernelIdeal.Skeleton
import proofs.«117935_j33621003993451_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared at this grid coordinate: the body's test, `coordinate = 0`, as it computes it. -/
abbrev clears0 (i : grid0.Coords) : Prop :=
  (Scalar.cmpi .ne (Scalar.extui (Scalar.cmpi .eq (BitVec.ofNat 32 (i 0).val) 0#32)) 0#32) = 1#1

/-- Over the sixteen points it holds at the first only. -/
theorem clears0_iff : ∀ t : Fin cfg0.N, clears0 (grid0.coords t) ↔ t.val % 16 = 0 :=
  (by decide +kernel : ∀ t : Fin grid0.N, clears0 (grid0.coords t) ↔ t.val % 16 = 0)

/-- The means' buffer and the accumulator's, through which their contents are stated. -/
abbrev viewMeans : View sig .tc .vmem S512x128 .f32 := (Memref.whole cc0_stg1_0 : Memref sig .tc .vmem S512x128 .f32).view
abbrev viewAcc0 : View sig .tc .vmem S1x1 .f32 := (Memref.whole cc0_stg2_0 : Memref sig .tc .vmem S1x1 .f32).view

/-- Each window's current staging memref at a point, as the pipeline passes it, and its wholeness. -/
abbrev mr0_0 (t : Fin cfg0.N) : Memref sig .tc .vmem S512x16x128 .f32 := win0_0.stage (cfg0.slots t 0)
abbrev hmr0_0 (t : Fin cfg0.N) : (mr0_0 t).IsWhole := hstage0_0 ((cfg0.slots t 0).cast nbuf0_0)
abbrev mr0_1 (t : Fin cfg0.N) : Memref sig .tc .vmem S512x128 .f32 := win0_1.stage (cfg0.slots t 1)
abbrev hmr0_1 (t : Fin cfg0.N) : (mr0_1 t).IsWhole := hstage0_1 ((cfg0.slots t 1).cast nbuf0_1)
abbrev mr0_2 (t : Fin cfg0.N) : Memref sig .tc .vmem S1x1 .f32 := win0_2.stage (cfg0.slots t 2)
abbrev hmr0_2 (t : Fin cfg0.N) : (mr0_2 t).IsWhole := hstage0_2 ((cfg0.slots t 2).cast nbuf0_2)

set_option maxHeartbeats 2000000 in
/-- THE FIRST POINT. With the tile at `x0` and both outputs at anything, the body runs, leaving the tile as it was and
    each output with the recorded stores written. -/
noncomputable def run0_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) :
    Σ' (L1 : List (View.Piece (Elt F) S512x128 .f32)) (L2 : List (View.Piece (Elt F) S1x1 .f32)),
      PLift (∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc0__center_intra_kernel i arg1 harg1 arg2 harg2 arg3 harg3) K) := by
  refine ⟨?_, ?_, ⟨fun E K => ?run⟩⟩
  case run =>
    simp only [cc0__center_intra_kernel_eq_skeleton]; unfold cc0__center_intra_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc)
    sl_step
    iapply Hk
    isplitl [H0]
    · iexists _; isplitr; · ipureintro; exact harg1.read_unread _
      iexact H0
    isplitl [H1]
    · iexists _; iexact H1
    iexists _; iexact H2

set_option maxHeartbeats 2000000 in
/-- EVERY LATER POINT. With the tile at `x0`, the means' buffer at anything and the accumulator at its running
    contents `acc`, the body runs, leaving the tile as it was and each output with the recorded stores written. -/
noncomputable def run0_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) :
    Σ' (L1 : List (View.Piece (Elt F) S512x128 .f32)) (L2 : List (View.Piece (Elt F) S1x1 .f32)),
      PLift (∀ (E : Set ℕ) (K : PUnit → sProp 𝕄),
        iprop(owns (c : Thread nD τ) arg1 fullShare x0 ∗ (∃ d, owns (c : Thread nD τ) arg2 fullShare d) ∗ owns (c : Thread nD τ) arg3 fullShare acc
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc0__center_intra_kernel i arg1 harg1 arg2 harg2 arg3 harg3) K) := by
  refine ⟨?_, ?_, ⟨fun E K => ?run⟩⟩
  case run =>
    simp only [cc0__center_intra_kernel_eq_skeleton]; unfold cc0__center_intra_kernel_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | exact hc)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.KI.Region0.lean ====
/-
  The first kernel's pipeline at the contents `V` its region is entered with: what each window's staging buffer holds
  after the body at every grid point, and the body's obligation.

  The tile window holds its block of the grouped samples. The means' window holds, after the body, the stores the
  run recorded for it (the tile's means). The accumulator's window is never written back before the last point, so
  what the body finds in it at a later point is what the body left at the point before: its contents are defined by
  recursion on the point, the first point's from the clearing case, every later one's from the adding case applied
  to the previous contents.
-/
import proofs.«117935_j33621003993451_1_alg».proof.Proof.KI.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data over `V` whose body leaves
    the block in place. -/
theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-! ## What each case leaves in the two outputs -/

theorem coverMeans_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) (y : S512x128.Idx) :
    ∃ pc ∈ (run0_first c i arg1 harg1 arg2 harg2 arg3 harg3 hc x0).1, y ∈ pc.1.set :=
  View.cover_of_tiledL (run0_first c i arg1 harg1 arg2 harg2 arg3 harg3 hc x0).1 S512x128.size (by sl_kernel_rfl) y

theorem coverAcc_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) (y : S1x1.Idx) :
    ∃ pc ∈ (run0_first c i arg1 harg1 arg2 harg2 arg3 harg3 hc x0).2.1, y ∈ pc.1.set :=
  View.cover_of_tiledL (run0_first c i arg1 harg1 arg2 harg2 arg3 harg3 hc x0).2.1 S1x1.size (by sl_kernel_rfl) y

theorem coverMeans_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) (y : S512x128.Idx) :
    ∃ pc ∈ (run0_later c i arg1 harg1 arg2 harg2 arg3 harg3 hc x0 acc).1, y ∈ pc.1.set :=
  View.cover_of_tiledL (run0_later c i arg1 harg1 arg2 harg2 arg3 harg3 hc x0 acc).1 S512x128.size (by sl_kernel_rfl) y

theorem coverAcc_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) (y : S1x1.Idx) :
    ∃ pc ∈ (run0_later c i arg1 harg1 arg2 harg2 arg3 harg3 hc x0 acc).2.1, y ∈ pc.1.set :=
  View.cover_of_tiledL (run0_later c i arg1 harg1 arg2 harg2 arg3 harg3 hc x0 acc).2.1 S1x1.size (by sl_kernel_rfl) y

/-- The means' buffer after the first point's body: its recorded stores read back. -/
def means_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) : Vec F S512x128 .f32 :=
  viewMeans.read (Elt F) (viewMeans.writes (Elt F) viewMeans.junk (run0_first c i arg1 harg1 arg2 harg2 arg3 harg3 hc x0).1)

/-- The accumulator after the first point's body. -/
def acc_first (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) : Vec F S1x1 .f32 :=
  viewAcc0.read (Elt F) (viewAcc0.writes (Elt F) viewAcc0.junk (run0_first c i arg1 harg1 arg2 harg2 arg3 harg3 hc x0).2.1)

/-- The means' buffer after a later point's body. -/
def means_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) : Vec F S512x128 .f32 :=
  viewMeans.read (Elt F) (viewMeans.writes (Elt F) viewMeans.junk (run0_later c i arg1 harg1 arg2 harg2 arg3 harg3 hc x0 acc).1)

/-- The accumulator after a later point's body, from its contents `acc` before it. -/
def acc_later (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) : Vec F S1x1 .f32 :=
  viewAcc0.read (Elt F) (viewAcc0.writes (Elt F) viewAcc0.junk (run0_later c i arg1 harg1 arg2 harg2 arg3 harg3 hc x0 acc).2.1)

/-! ## Point by point -/

/-- THE RUNNING SUM. What the accumulator's buffer holds after the body at position `n`. -/
def accAt0 (c : Dev nD) : (n : ℕ) → n < cfg0.N → Vec F S1x1 .f32
  | 0, hn => acc_first c (grid0.coords ⟨0, hn⟩) (mr0_0 ⟨0, hn⟩) (hmr0_0 ⟨0, hn⟩) (mr0_1 ⟨0, hn⟩) (hmr0_1 ⟨0, hn⟩) (mr0_2 ⟨0, hn⟩) (hmr0_2 ⟨0, hn⟩) ((clears0_iff ⟨0, hn⟩).mpr (Nat.zero_mod _)) (tile0 V c 0 ⟨0, hn⟩)
  | n + 1, hn =>
    if h0 : (n + 1) % 16 = 0 then
      acc_first c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) ((clears0_iff ⟨n + 1, hn⟩).mpr h0) (tile0 V c 0 ⟨n + 1, hn⟩)
    else
      acc_later c (grid0.coords ⟨n + 1, hn⟩) (mr0_0 ⟨n + 1, hn⟩) (hmr0_0 ⟨n + 1, hn⟩) (mr0_1 ⟨n + 1, hn⟩) (hmr0_1 ⟨n + 1, hn⟩) (mr0_2 ⟨n + 1, hn⟩) (hmr0_2 ⟨n + 1, hn⟩) (fun h => h0 ((clears0_iff ⟨n + 1, hn⟩).mp h)) (tile0 V c 0 ⟨n + 1, hn⟩) (accAt0 c n (Nat.lt_of_succ_lt hn))

theorem accAt0_first (c : Dev nD) (t : Fin cfg0.N) (h0 : t.val % 16 = 0) :
    accAt0 V c t.val t.isLt = acc_first c (grid0.coords t) (mr0_0 t) (hmr0_0 t) (mr0_1 t) (hmr0_1 t) (mr0_2 t) (hmr0_2 t) ((clears0_iff t).mpr h0) (tile0 V c 0 t) := by
  obtain ⟨n, hn⟩ := t
  cases n with
  | zero => exact rfl
  | succ n => exact (dif_pos h0).trans rfl

theorem accAt0_later (c : Dev nD) (t : Fin cfg0.N) (h0 : ¬t.val % 16 = 0) :
    accAt0 V c t.val t.isLt = acc_later c (grid0.coords t) (mr0_0 t) (hmr0_0 t) (mr0_1 t) (hmr0_1 t) (mr0_2 t) (hmr0_2 t) (fun h => h0 ((clears0_iff t).mp h)) (tile0 V c 0 t)
      (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the means' buffer holds after the body at point `t`. -/
def meansAt0 (c : Dev nD) (t : Fin cfg0.N) : Vec F S512x128 .f32 :=
  if h0 : t.val % 16 = 0 then
    means_first c (grid0.coords t) (mr0_0 t) (hmr0_0 t) (mr0_1 t) (hmr0_1 t) (mr0_2 t) (hmr0_2 t) ((clears0_iff t).mpr h0) (tile0 V c 0 t)
  else
    means_later c (grid0.coords t) (mr0_0 t) (hmr0_0 t) (mr0_1 t) (hmr0_1 t) (mr0_2 t) (hmr0_2 t) (fun h => h0 ((clears0_iff t).mp h)) (tile0 V c 0 t)
      (accAt0 V c (t.val - 1) (Nat.lt_of_le_of_lt (Nat.sub_le _ _) t.isLt))

theorem meansAt0_first (c : Dev nD) (t : Fin cfg0.N) (h0 : t.val % 16 = 0) :
    meansAt0 V c t = means_first c (grid0.coords t) (mr0_0 t) (hmr0_0 t) (mr0_1 t) (hmr0_1 t) (mr0_2 t) (hmr0_2 t) ((clears0_iff t).mpr h0) (tile0 V c 0 t) := dif_pos h0

theorem meansAt0_later (c : Dev nD) (t : Fin cfg0.N) (h0 : ¬t.val % 16 = 0) :
    meansAt0 V c t = means_later c (grid0.coords t) (mr0_0 t) (hmr0_0 t) (mr0_1 t) (hmr0_1 t) (mr0_2 t) (hmr0_2 t) (fun h => h0 ((clears0_iff t).mp h)) (tile0 V c 0 t)
      (accAt0 V c (t.val - 1) (Nat.lt_of_le_of_lt (Nat.sub_le _ _) t.isLt)) := dif_neg h0

/-! ## The proof data -/

/-- The first pipeline's proof data on core `c`: the arrays as the region finds them; after the body each window's
    buffer as above; the invariant the scoped buffers it does not stage and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => meansAt0 V c t
    | ⟨2, _⟩ => accAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = meansAt0 V c t := by dsimp only [dat0]
theorem after0_2 (c : Dev nD) (t : Fin cfg0.N) : (dat0 V c).after 2 t = accAt0 V c t.val t.isLt := by dsimp only [dat0]

theorem found0_0 (c : Dev nD) (t : Fin cfg0.N) (d) : (dat0 V c).before 0 t d = tile0 V c 0 t :=
  found0_0_of V (dat0 V c) (A_eq0 V c 0) (after0_0 V c) t d

/-- At a later point the accumulator's buffer holds what the body left at the point before: the buffer is not written
    back in between. -/
theorem found0_2_later (c : Dev nD) (t : Fin cfg0.N) (h0 : ¬t.val % 16 = 0) (d) :
    (dat0 V c).before 2 t d = accAt0 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mr0_0 t) fullShare ((dat0 V c).before 0 t d))
    ∗ (∃ d, owns (c : Thread nD τ) (mr0_1 t) fullShare ((dat0 V c).before 1 t d))
    ∗ (∃ d, owns (c : Thread nD τ) (mr0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (mr0_0 t) fullShare ((dat0 V c).after 0 t)
    ∗ owns (c : Thread nD τ) (mr0_1 t) fullShare ((dat0 V c).after 1 t)
    ∗ owns (c : Thread nD τ) (mr0_2 t) fullShare ((dat0 V c).after 2 t))

set_option maxHeartbeats 1600000 in
/-- The body at any point: the tile's buffer holds its block; the point's position says which case it is in; at a
    later point the accumulator holds the previous running sum; so that case's run applies, and what it leaves is
    read back through each output's stores. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [accAt0_first V c t h0, meansAt0_first V c t h0]
    unfold means_first acc_first
    iintro ⟨HΦ, Ho, ⟨%d0, H0⟩, ⟨%d1, H1⟩, ⟨%d2, H2⟩⟩
    iapply ((run0_first c (grid0.coords t) _ _ _ _ _ _ ((clears0_iff t).mpr h0) (tile0 V c 0 t)).2.2.down Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverMeans_first c _ _ _ _ _ _ _ _ _)
    · unfold owns; iexists _; isplitr
      swap; · iexact H2
      ipureintro; exact View.read_writes_of_cover _ _ _ _ _ (coverAcc_first c _ _ _ _ _ _ _ _ _)
  · rw [accAt0_later V c t h0, meansAt0_later V c t h0]
    simp only [found0_2_later V c t h0]
    unfold means_later acc_later
    iintro ⟨HΦ, Ho, ⟨%d0, H0⟩, ⟨%d1, H1⟩, ⟨%d2, H2⟩⟩
    iapply ((run0_later c (grid0.coords t) _ _ _ _ _ _ (fun h => h0 ((clears0_iff t).mp h)) (tile0 V c 0 t) _).2.2.down Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (coverMeans_later c _ _ _ _ _ _ _ _ _ _)
    · unfold owns; iexists _; isplitr
      swap; · iexact H2
      ipureintro; exact View.read_writes_of_cover _ _ _ _ _ (coverAcc_later c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/-
  The second kernel on any staging memrefs, in its two control cases.

  At a grid point the kernel reads 128 rows of the centres, all the centres, the rows' squared norms and all squared
  norms, forms the pairs' terms of those rows against every column, and adds their sum into a one-element
  accumulator, which it first clears when the grid coordinate is zero. As for the first kernel there are two cases:
  at the first point the accumulator's old contents are never used; at every later point they are the running sum.
  The run records, as its witness, the list of stores the accumulator's buffer ends with.
-/
import proofs.«117935_j33621003993451_1_alg».proof.Proof.Gen.KernelIdeal.Launch
import proofs.«117935_j33621003993451_1_alg».proof.Proof.Gen.KernelIdeal.Skeleton
import proofs.«117935_j33621003993451_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is cleared at this grid coordinate: the body's test, `coordinate = 0`, as it computes it. -/
abbrev clears1 (i : grid1.Coords) : Prop :=
  (Scalar.cmpi .ne (Scalar.extui (Scalar.cmpi .eq (BitVec.ofNat 32 (i 0).val) 0#32)) 0#32) = 1#1

/-- Over the sixty-four points it holds at the first only. -/
theorem clears1_iff : ∀ t : Fin cfg1.N, clears1 (grid1.coords t) ↔ t.val % 64 = 0 :=
  (by decide +kernel : ∀ t : Fin grid1.N, clears1 (grid1.coords t) ↔ t.val % 64 = 0)

/-- The accumulator's buffer, through which its contents are stated. -/
abbrev viewAcc1 : View sig .tc .vmem S1x1 .f32 := (Memref.whole cc1_stg4_0 : Memref sig .tc .vmem S1x1 .f32).view

/-- Each window's current staging memref at a point, as the pipeline passes it, and its wholeness. -/
abbrev mr1_0 (t : Fin cfg1.N) : Memref sig .tc .vmem S128x128 .f32 := win1_0.stage (cfg1.slots t 0)
abbrev hmr1_0 (t : Fin cfg1.N) : (mr1_0 t).IsWhole := hstage1_0 ((cfg1.slots t 0).cast nbuf1_0)
abbrev mr1_1 (t : Fin cfg1.N) : Memref sig .tc .vmem S8192x128 .f32 := win1_1.stage (cfg1.slots t 1)
abbrev hmr1_1 (t : Fin cfg1.N) : (mr1_1 t).IsWhole := hstage1_1 ((cfg1.slots t 1).cast nbuf1_1)
abbrev mr1_2 (t : Fin cfg1.N) : Memref sig .tc .vmem S128x1 .f32 := win1_2.stage (cfg1.slots t 2)
abbrev hmr1_2 (t : Fin cfg1.N) : (mr1_2 t).IsWhole := hstage1_2 ((cfg1.slots t 2).cast nbuf1_2)
abbrev mr1_3 (t : Fin cfg1.N) : Memref sig .tc .vmem S1x8192 .f32 := win1_3.stage (cfg1.slots t 3)
abbrev hmr1_3 (t : Fin cfg1.N) : (mr1_3 t).IsWhole := hstage1_3 ((cfg1.slots t 3).cast nbuf1_3)
abbrev mr1_4 (t : Fin cfg1.N) : Memref sig .tc .vmem S1x1 .f32 := win1_4.stage (cfg1.slots t 4)
abbrev hmr1_4 (t : Fin cfg1.N) : (mr1_4 t).IsWhole := hstage1_4 ((cfg1.slots t 4).cast nbuf1_4)

set_option maxHeartbeats 2000000 in
/-- THE FIRST POINT. With the four inputs at their contents and the accumulator at anything, the body runs, leaving
    the inputs as they were and the accumulator with the recorded stores written. -/
noncomputable def run1_first (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E (cc1__inter_kernel i arg1 harg1 arg2 harg2 arg3 harg3 arg4 harg4 arg5 harg5) K } := by
  refine ⟨?_, fun E K => ?run⟩
  case run =>
    simp only [cc1__inter_kernel_eq_skeleton]; unfold cc1__inter_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- EVERY LATER POINT. With the four inputs at their contents and the accumulator at its running contents `acc`, the
    body runs, leaving the inputs as they were and the accumulator with the recorded stores written. -/
noncomputable def run1_later (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare acc
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E (cc1__inter_kernel i arg1 harg1 arg2 harg2 arg3 harg3 arg4 harg4 arg5 harg5) K } := by
  refine ⟨?_, fun E K => ?run⟩
  case run =>
    simp only [cc1__inter_kernel_eq_skeleton]; unfold cc1__inter_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Region1.lean ====
/-
  The second kernel's pipeline at the contents `V` its region is entered with: what each window's staging buffer holds
  after the body at every grid point, and the body's obligation.

  The four input windows hold their blocks — 128 rows of the centres and of the squared norms, which move with the
  point, and all the centres and all the squared norms, which are fetched once and stay. The rows and the whole of the
  centres are two windows on ONE array, so the pipeline holds that array in two halves, one per window. The
  accumulator's window is written back at the last point only, so its contents are defined by recursion on the point
  as for the first kernel.
-/
import proofs.«117935_j33621003993451_1_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not, for any proof data over
    `V` whose body leaves the block in place. -/
theorem found1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)

/-! ## What each case leaves in the accumulator -/

theorem coverAcc1_first (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) (y : S1x1.Idx) :
    ∃ pc ∈ (run1_first c i arg1 harg1 arg2 harg2 arg3 harg3 arg4 harg4 arg5 harg5 hc x0 x1 x2 x3).1, y ∈ pc.1.set :=
  View.cover_of_tiledL (run1_first c i arg1 harg1 arg2 harg2 arg3 harg3 arg4 harg4 arg5 harg5 hc x0 x1 x2 x3).1 S1x1.size (by sl_kernel_rfl) y

theorem coverAcc1_later (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) (y : S1x1.Idx) :
    ∃ pc ∈ (run1_later c i arg1 harg1 arg2 harg2 arg3 harg3 arg4 harg4 arg5 harg5 hc x0 x1 x2 x3 acc).1, y ∈ pc.1.set :=
  View.cover_of_tiledL (run1_later c i arg1 harg1 arg2 harg2 arg3 harg3 arg4 harg4 arg5 harg5 hc x0 x1 x2 x3 acc).1 S1x1.size (by sl_kernel_rfl) y

/-- The accumulator after the first point's body: its recorded stores read back. -/
def acc1_first (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) : Vec F S1x1 .f32 :=
  viewAcc1.read (Elt F) (viewAcc1.writes (Elt F) viewAcc1.junk (run1_first c i arg1 harg1 arg2 harg2 arg3 harg3 arg4 harg4 arg5 harg5 hc x0 x1 x2 x3).1)

/-- The accumulator after a later point's body, from its contents `acc` before it. -/
def acc1_later (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) : Vec F S1x1 .f32 :=
  viewAcc1.read (Elt F) (viewAcc1.writes (Elt F) viewAcc1.junk (run1_later c i arg1 harg1 arg2 harg2 arg3 harg3 arg4 harg4 arg5 harg5 hc x0 x1 x2 x3 acc).1)

/-- THE RUNNING SUM. What the accumulator's buffer holds after the body at position `n`. -/
def accAt1 (c : Dev nD) : (n : ℕ) → n < cfg1.N → Vec F S1x1 .f32
  | 0, hn => acc1_first c (grid1.coords ⟨0, hn⟩) (mr1_0 ⟨0, hn⟩) (hmr1_0 ⟨0, hn⟩) (mr1_1 ⟨0, hn⟩) (hmr1_1 ⟨0, hn⟩) (mr1_2 ⟨0, hn⟩) (hmr1_2 ⟨0, hn⟩) (mr1_3 ⟨0, hn⟩) (hmr1_3 ⟨0, hn⟩) (mr1_4 ⟨0, hn⟩) (hmr1_4 ⟨0, hn⟩) ((clears1_iff ⟨0, hn⟩).mpr (Nat.zero_mod _)) (tile1 V c 0 ⟨0, hn⟩) (tile1 V c 1 ⟨0, hn⟩) (tile1 V c 2 ⟨0, hn⟩) (tile1 V c 3 ⟨0, hn⟩)
  | n + 1, hn =>
    if h0 : (n + 1) % 64 = 0 then
      acc1_first c (grid1.coords ⟨n + 1, hn⟩) (mr1_0 ⟨n + 1, hn⟩) (hmr1_0 ⟨n + 1, hn⟩) (mr1_1 ⟨n + 1, hn⟩) (hmr1_1 ⟨n + 1, hn⟩) (mr1_2 ⟨n + 1, hn⟩) (hmr1_2 ⟨n + 1, hn⟩) (mr1_3 ⟨n + 1, hn⟩) (hmr1_3 ⟨n + 1, hn⟩) (mr1_4 ⟨n + 1, hn⟩) (hmr1_4 ⟨n + 1, hn⟩) ((clears1_iff ⟨n + 1, hn⟩).mpr h0) (tile1 V c 0 ⟨n + 1, hn⟩) (tile1 V c 1 ⟨n + 1, hn⟩) (tile1 V c 2 ⟨n + 1, hn⟩) (tile1 V c 3 ⟨n + 1, hn⟩)
    else
      acc1_later c (grid1.coords ⟨n + 1, hn⟩) (mr1_0 ⟨n + 1, hn⟩) (hmr1_0 ⟨n + 1, hn⟩) (mr1_1 ⟨n + 1, hn⟩) (hmr1_1 ⟨n + 1, hn⟩) (mr1_2 ⟨n + 1, hn⟩) (hmr1_2 ⟨n + 1, hn⟩) (mr1_3 ⟨n + 1, hn⟩) (hmr1_3 ⟨n + 1, hn⟩) (mr1_4 ⟨n + 1, hn⟩) (hmr1_4 ⟨n + 1, hn⟩) (fun h => h0 ((clears1_iff ⟨n + 1, hn⟩).mp h)) (tile1 V c 0 ⟨n + 1, hn⟩) (tile1 V c 1 ⟨n + 1, hn⟩) (tile1 V c 2 ⟨n + 1, hn⟩) (tile1 V c 3 ⟨n + 1, hn⟩) (accAt1 c n (Nat.lt_of_succ_lt hn))

theorem accAt1_first (c : Dev nD) (t : Fin cfg1.N) (h0 : t.val % 64 = 0) :
    accAt1 V c t.val t.isLt = acc1_first c (grid1.coords t) (mr1_0 t) (hmr1_0 t) (mr1_1 t) (hmr1_1 t) (mr1_2 t) (hmr1_2 t) (mr1_3 t) (hmr1_3 t) (mr1_4 t) (hmr1_4 t) ((clears1_iff t).mpr h0) (tile1 V c 0 t) (tile1 V c 1 t) (tile1 V c 2 t) (tile1 V c 3 t) := by
  obtain ⟨n, hn⟩ := t
  cases n with
  | zero => exact rfl
  | succ n => exact (dif_pos h0).trans rfl

theorem accAt1_later (c : Dev nD) (t : Fin cfg1.N) (h0 : ¬t.val % 64 = 0) :
    accAt1 V c t.val t.isLt = acc1_later c (grid1.coords t) (mr1_0 t) (hmr1_0 t) (mr1_1 t) (hmr1_1 t) (mr1_2 t) (hmr1_2 t) (mr1_3 t) (hmr1_3 t) (mr1_4 t) (hmr1_4 t) (fun h => h0 ((clears1_iff t).mp h)) (tile1 V c 0 t) (tile1 V c 1 t) (tile1 V c 2 t) (tile1 V c 3 t)
      (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The second pipeline's proof data on core `c`: the arrays as the region finds them; after the body each input's
    buffer at its block and the accumulator's at the running sum; the invariant the scoped buffers it does not stage
    and the generator register, untouched; nothing owed; the centres' array held in two halves by the two windows
    that read it, the other arrays whole. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => accAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = tile1 V c 3 t := by dsimp only [dat1]
theorem after1_4 (c : Dev nD) (t : Fin cfg1.N) : (dat1 V c).after 4 t = accAt1 V c t.val t.isLt := by dsimp only [dat1]

theorem found1_0 (c : Dev nD) (t : Fin cfg1.N) (d) : (dat1 V c).before 0 t d = tile1 V c 0 t :=
  found1_0_of V (dat1 V c) (A_eq1 V c 0) (after1_0 V c) t d
theorem found1_1 (c : Dev nD) (t : Fin cfg1.N) (d) : (dat1 V c).before 1 t d = tile1 V c 1 t :=
  found1_1_of V (dat1 V c) (A_eq1 V c 1) (after1_1 V c) t d
theorem found1_2 (c : Dev nD) (t : Fin cfg1.N) (d) : (dat1 V c).before 2 t d = tile1 V c 2 t :=
  found1_2_of V (dat1 V c) (A_eq1 V c 2) (after1_2 V c) t d
theorem found1_3 (c : Dev nD) (t : Fin cfg1.N) (d) : (dat1 V c).before 3 t d = tile1 V c 3 t :=
  found1_3_of V (dat1 V c) (A_eq1 V c 3) (after1_3 V c) t d

/-- At a later point the accumulator's buffer holds what the body left at the point before. -/
theorem found1_4_later (c : Dev nD) (t : Fin cfg1.N) (h0 : ¬t.val % 64 = 0) (d) :
    (dat1 V c).before 4 t d = accAt1 V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mr1_0 t) fullShare ((dat1 V c).before 0 t d))
    ∗ (∃ d, owns (c : Thread nD τ) (mr1_1 t) fullShare ((dat1 V c).before 1 t d))
    ∗ (∃ d, owns (c : Thread nD τ) (mr1_2 t) fullShare ((dat1 V c).before 2 t d))
    ∗ (∃ d, owns (c : Thread nD τ) (mr1_3 t) fullShare ((dat1 V c).before 3 t d))
    ∗ (∃ d, owns (c : Thread nD τ) (mr1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (mr1_0 t) fullShare ((dat1 V c).after 0 t)
    ∗ owns (c : Thread nD τ) (mr1_1 t) fullShare ((dat1 V c).after 1 t)
    ∗ owns (c : Thread nD τ) (mr1_2 t) fullShare ((dat1 V c).after 2 t)
    ∗ owns (c : Thread nD τ) (mr1_3 t) fullShare ((dat1 V c).after 3 t)
    ∗ owns (c : Thread nD τ) (mr1_4 t) fullShare ((dat1 V c).after 4 t))

set_option maxHeartbeats 1600000 in
/-- The body at any point: the inputs' buffers hold their blocks; the point's position says which case it is in; at a
    later point the accumulator holds the previous running sum; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 64 = 0
  · rw [accAt1_first V c t h0]
    unfold acc1_first
    iintro ⟨HΦ, Ho, ⟨%d0, H0⟩, ⟨%d1, H1⟩, ⟨%d2, H2⟩, ⟨%d3, H3⟩, ⟨%d4, H4⟩⟩
    iapply ((run1_first c (grid1.coords t) _ _ _ _ _ _ _ _ _ _ ((clears1_iff t).mpr h0) (tile1 V c 0 t) (tile1 V c 1 t) (tile1 V c 2 t) (tile1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverAcc1_first c _ _ _ _ _ _ _ _ _ _ _ _ _ _ _ _)
  · rw [accAt1_later V c t h0]
    simp only [found1_4_later V c t h0]
    unfold acc1_later
    iintro ⟨HΦ, Ho, ⟨%d0, H0⟩, ⟨%d1, H1⟩, ⟨%d2, H2⟩, ⟨%d3, H3⟩, ⟨%d4, H4⟩⟩
    iapply ((run1_later c (grid1.coords t) _ _ _ _ _ _ _ _ _ _ (fun h => h0 ((clears1_iff t).mp h)) (tile1 V c 0 t) (tile1 V c 1 t) (tile1 V c 2 t) (tile1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverAcc1_later c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region1Arrays.lean ====
/-
  The second kernel's arrays at its region's entry and exit.

  The region is entered with every unscoped buffer of the core held whole. Four of them lie behind the kernel's five
  windows: the centres (read through two windows), the squared norms as a column, the squared norms as a row, and the
  one-element result. At entry the centres' buffer is split into two halves, one for each window that reads it, and
  the others go to their windows whole; at exit the halves are joined again, the inputs are as they were, and the
  result's buffer holds what the last write-back left.
-/
import proofs.«117935_j33621003993451_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the second kernel's windows. -/
theorem arrRefs1 : Finset.univ.image (Pipeline.arrRef (cfgs 1).spec) = ([main_v2_0, main_v5, main_v6, main_v7] : List (Ref sig .tc)).toFinset := by decide

theorem wholeSet1_0 : (cfg1.win 0).arr.view.set = Finset.univ := (Memref.isWhole_whole main_v2_0).set_eq_univ
theorem wholeSet1_1 : (cfg1.win 1).arr.view.set = Finset.univ := (Memref.isWhole_whole main_v2_0).set_eq_univ
theorem wholeSet1_2 : (cfg1.win 2).arr.view.set = Finset.univ := (Memref.isWhole_whole main_v5).set_eq_univ
theorem wholeSet1_3 : (cfg1.win 3).arr.view.set = Finset.univ := (Memref.isWhole_whole main_v6).set_eq_univ
theorem wholeSet1_4 : (cfg1.win 4).arr.view.set = Finset.univ := (Memref.isWhole_whole main_v7).set_eq_univ

/-- ENTRY. The core's unscoped buffers at `V` are the pipeline's arrays at their entry contents — the centres in two
    halves — and the buffers no window stages. -/
theorem entry1 (c : Dev nD) :
    (unscopedBufs c (V c) : sProp 𝕄) ⊢ iprop((dat1 V c).arrays (fun w => (dat1 V c).arrAt w 0) ∗ Pipeline.unscopedRest spec1 c (V c)) := by
  rw [Pipeline.unscopedBufs_split₀ cfgs 1 (by decide) c (V c)]
  refine sep_mono ?_ .rfl
  unfold Pipeline.arrBufs
  rw [bigSep_eq_bigSepL_of_eq [main_v2_0, main_v5, main_v6, main_v7] arrRefs1 (by decide)]
  unfold Dat.arrays
  rw [bigSep_W1, wholeSet1_0, wholeSet1_2, wholeSet1_3, wholeSet1_4]
  show (iprop((((c : Thread nD τ).loc main_v2_0) ↦{fullShare} V c main_v2_0) ∗ (((c : Thread nD τ).loc main_v5) ↦{fullShare} V c main_v5)
      ∗ (((c : Thread nD τ).loc main_v6) ↦{fullShare} V c main_v6) ∗ (((c : Thread nD τ).loc main_v7) ↦{fullShare} V c main_v7)) : sProp 𝕄)
    ⊢ iprop((((c : Thread nD τ).loc main_v2_0) ↦{fullShare.left} V c main_v2_0) ∗ (((c : Thread nD τ).loc main_v2_0) ↦{fullShare.right} V c main_v2_0)
      ∗ (((c : Thread nD τ).loc main_v5) ↦{fullShare} V c main_v5) ∗ (((c : Thread nD τ).loc main_v6) ↦{fullShare} V c main_v6)
      ∗ (((c : Thread nD τ).loc main_v7) ↦{fullShare} V c main_v7))
  iintro ⟨H2, H5, H6, H7⟩
  ihave Hs := (pointsTo_share (PosShare.mem_left_op_right fullShare)).1 $$ H2
  icases Hs with ⟨Hl, Hr⟩
  isplitl [Hl]; · iexact Hl
  isplitl [Hr]; · iexact Hr
  isplitl [H5]; · iexact H5
  isplitl [H6]; · iexact H6
  iexact H7

/-- EXIT. The pipeline's arrays at their final contents and the buffers no window stages are the core's unscoped
    buffers at any contents `V'` that has the result's buffer at what the write-backs left and agrees with `V`
    elsewhere: the inputs are never written, and the centres' two halves join. -/
theorem exit1 (V' : (c : Dev nD) → (b : Ref sig .tc) → Buf (Elt F) ((c : Thread nD τ).loc b)) (c : Dev nD)
    (h7 : V' c main_v7 = (dat1 V c).arrAt 4 cfg1.N) (hrest : ∀ b : Ref sig .tc, b ≠ main_v7 → V' c b = V c b) :
    iprop((dat1 V c).arrays (fun w => (dat1 V c).arrAt w cfg1.N) ∗ Pipeline.unscopedRest spec1 c (V c)) ⊢ (unscopedBufs c (V' c) : sProp 𝕄) := by
  rw [Pipeline.unscopedBufs_split₀ cfgs 1 (by decide) c (V' c)]
  refine sep_mono ?_ (Entails.of_eq ?_)
  · unfold Pipeline.arrBufs
    rw [bigSep_eq_bigSepL_of_eq [main_v2_0, main_v5, main_v6, main_v7] arrRefs1 (by decide)]
    unfold Dat.arrays
    rw [bigSep_W1, wholeSet1_0, wholeSet1_2, wholeSet1_3, wholeSet1_4]
    dsimp only
    rw [(dat1 V c).arrAt_in 0 rfl, (dat1 V c).arrAt_in 1 rfl, (dat1 V c).arrAt_in 2 rfl, (dat1 V c).arrAt_in 3 rfl, ← h7]
    show (iprop((((c : Thread nD τ).loc main_v2_0) ↦{fullShare.left} V c main_v2_0) ∗ (((c : Thread nD τ).loc main_v2_0) ↦{fullShare.right} V c main_v2_0)
        ∗ (((c : Thread nD τ).loc main_v5) ↦{fullShare} V c main_v5) ∗ (((c : Thread nD τ).loc main_v6) ↦{fullShare} V c main_v6)
        ∗ (((c : Thread nD τ).loc main_v7) ↦{fullShare} V' c main_v7)) : sProp 𝕄)
      ⊢ iprop((((c : Thread nD τ).loc main_v2_0) ↦{fullShare} V' c main_v2_0) ∗ (((c : Thread nD τ).loc main_v5) ↦{fullShare} V' c main_v5)
        ∗ (((c : Thread nD τ).loc main_v6) ↦{fullShare} V' c main_v6) ∗ (((c : Thread nD τ).loc main_v7) ↦{fullShare} V' c main_v7))
    rw [hrest main_v2_0 (by decide), hrest main_v5 (by decide), hrest main_v6 (by decide)]
    iintro ⟨Hl, Hr, H5, H6, H7⟩
    isplitl [Hl Hr]
    · iapply (pointsTo_share (PosShare.mem_left_op_right fullShare)).2
      isplitl [Hl]; · iexact Hl
      iexact Hr
    isplitl [H5]; · iexact H5
    isplitl [H6]; · iexact H6
    iexact H7
  · unfold Pipeline.unscopedRest
    exact bigSep_congr fun b hb => by
      rw [hrest b (fun h => (Finset.mem_sdiff.mp hb).2 (h ▸ Finset.mem_image.mpr ⟨4, Finset.mem_univ _, rfl⟩))]

end Cert.KernelIdeal.Hand

end
-- ==== Proof.KI.Run.lean ====
/-
  The whole run of @main: two host reshapes, the first kernel's region, the host stretch that forms the centres'
  squared norms, the second kernel's region, and the host stretch that divides the two sums by their counts.

  Between two of these five segments the core holds every unscoped buffer whole at known contents: the launch memory,
  then what each host stretch computes from what it finds, and at a region's exit the region's arrays at what its
  write-backs left with everything else unchanged. Each region is entered from the contents the segment before it
  left and hands on the contents the next one starts from; the launch threads them together. The conclusion names the
  contents of EVERY unscoped buffer in the final memory, from which both the unchanged argument and the two results
  are read.
-/
import proofs.«117935_j33621003993451_1_alg».proof.Proof.KI.Region0
import proofs.«117935_j33621003993451_1_alg».proof.Proof.KI.Region1Arrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two reshapes: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exitArr0 (c : Dev nD) (w : Fin cfg0.W) : (dat0 (V1 m ρ) c).arrAt w cfg0.N = V2 m ρ c (Pipeline.arrRef spec0 w) :=
  (W2_arr m ρ c w).symm
theorem exitRest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the squared norms' stretch: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: the result's buffer at what the last write-back left, every other buffer as entered
    (the region's other arrays are inputs). -/
def W4 (c : Dev nD) : Valuation τ sig (Elt F) :=
  Function.update (W3 m ρ c) (Proc.devRef .tc main_v7) ((dat1 (V3 m ρ) c).arrAt 4 cfg1.N)
abbrev V4 : (c : Dev nD) → (b : Ref sig .tc) → Buf (Elt F) ((c : Thread nD τ).loc b) := fun c b => W4 m ρ c b
theorem V4_result (c : Dev nD) : V4 m ρ c main_v7 = (dat1 (V3 m ρ) c).arrAt 4 cfg1.N := by
  show W4 m ρ c (Proc.devRef .tc main_v7) = _
  unfold W4; exact Function.update_self ..
theorem V4_rest (c : Dev nD) (b : Ref sig .tc) (hb : b ≠ main_v7) : V4 m ρ c b = V3 m ρ c b := by
  show W4 m ρ c (Proc.devRef .tc b) = W3 m ρ c (Proc.devRef .tc b)
  unfold W4; exact Function.update_of_ne (StableHlo.devRef_ne_of_ne hb) _ _
/-- After the last stretch: the end. -/
abbrev W5 : Dev nD → Valuation τ sig (Elt F) := fun c => StableHlo.after hostOps2 (W4 m ρ c)

/-- The argument ends as launched: no host operation writes it, and each region only reads the arrays it is given or
    writes its own results. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := V4_rest m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- The last thread state without what is owed: every unscoped buffer at the last contents, the generator register. -/
abbrev Tend (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- THE FIRST REGION: entered from every unscoped buffer at `W1`, left at `W2`. Its arrays are distinct buffers, split
    out of the unscoped buffers at entry and put back at exit. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered from every unscoped buffer at `W3`, left at `W4`. Two of its windows read one array,
    so its arrays are sorted out of the unscoped buffers, and put back, by this kernel's own entry and exit lemmas. -/
def reg1 : Pipeline.RegionSeg (pcfgs (F := F)) noTables (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m ρ) (V4 m ρ) c (V4_result m ρ c) (fun b hb => V4_rest m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) noTables (pdats m ρ) () defs₀ 𝒱₀ L lv) :=
  [ .host (hostSeg hostOps0 hostOps0_sub fresh0 (W0 m ρ)),
    .region (reg0 m ρ),
    .host (hostSeg hostOps1 hostOps1_sub fresh1 (W2 m ρ)),
    .region (reg1 m ρ),
    .host (hostSeg hostOps2 hostOps2_sub fresh2 (W4 m ρ)) ]

/-- @main is the run of the five segments. -/
theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters, every weakly fair execution of @main on the
    TensorCores terminates, nothing faulting, and in every final memory each unscoped buffer of each core holds the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tend m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, and the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

end Cert.KernelIdeal.Hand

end
-- ==== Proof.Spec.lean ====
/-
  The two losses as functions of the grouped samples, on the extended reals.

  The input is read as 8192 groups of 16 samples of 128 features, `x g p d`. A group's centre is the mean of its
  samples, feature by feature. The intra loss sums, over every sample, the squared excess over the margin of its
  Euclidean distance to its group's centre; the inter loss sums, over every pair of groups `i < j`, the squared
  shortfall below one of the distance between their centres, the squared distance taken through the identity
  `|a - b|² = |a|² + |b|² - 2 a·b` and clamped at zero. Each is then divided by a count.

  The pieces are stated over the data they depend on (one group's samples; two squared norms and an inner product),
  so that a tile of either program can be read as a sum of the same pieces.
-/
import Idealize.ShloMosaic.PureOps.Ideal
import Idealize.ShloMosaic.Lib.ValueIdx

noncomputable section

namespace Cert.Spec

open Idealize.ShloMosaic Idealize.ShloMosaic.ValueIdx
open scoped BigOperators

/-- The grouped samples: group, sample within the group, feature. -/
abbrev Samples : Type := (⟨3, ![8192, 16, 128]⟩ : Shape).Idx → EReal

/-- Feature `d` of the mean of sixteen samples. -/
def meanOf (row : Fin 16 → Fin 128 → EReal) (d : Fin 128) : EReal :=
  Ideal.div (∑ p : Fin 16, row p d) (Ideal.ofBits .f32 0x41800000#32)

/-- The squared excess over the margin of a distance whose square is `s`. -/
def excess (s : EReal) : EReal :=
  max (Ideal.sqrt s - Ideal.ofBits .f32 0x3DCCCCCD#32) 0 * max (Ideal.sqrt s - Ideal.ofBits .f32 0x3DCCCCCD#32) 0

/-- Sample `p` of a group: the squared excess of its distance to the group's mean. -/
def sampleTermOf (row : Fin 16 → Fin 128 → EReal) (p : Fin 16) : EReal :=
  excess (∑ d : Fin 128, (row p d - meanOf row d) * (row p d - meanOf row d))

/-- The squared shortfall below one of a distance whose square is `s`. -/
def shortfall (s : EReal) : EReal :=
  max (Ideal.ofBits .f32 0x3F800000#32 - Ideal.sqrt s) 0 * max (Ideal.ofBits .f32 0x3F800000#32 - Ideal.sqrt s) 0

/-- A pair of centres with squared norms `a`, `b` and inner product `g`: the squared shortfall of their distance
    when the pair is counted (`lt`), zero otherwise. -/
def pairTermOf (a b g : EReal) (lt : Prop) [Decidable lt] : EReal :=
  if lt then shortfall (max (a + b - Ideal.ofBits .f32 0x40000000#32 * g) 0) else 0

/-- The samples of group `g`. -/
def group (x : Samples) (g : Fin 8192) : Fin 16 → Fin 128 → EReal := fun p d => x (ix3 g p d)

/-- Feature `d` of group `g`'s centre. -/
def center (x : Samples) (g : Fin 8192) (d : Fin 128) : EReal := meanOf (group x g) d

/-- The squared norm of group `g`'s centre. -/
def sqNorm (x : Samples) (g : Fin 8192) : EReal := ∑ d : Fin 128, center x g d * center x g d

/-- The inner product of two centres. -/
def gram (x : Samples) (i j : Fin 8192) : EReal := ∑ k : Fin 128, center x i k * center x j k

/-- The pair `(i, j)`'s term of the inter loss. -/
def pairTerm (x : Samples) (i j : Fin 8192) : EReal :=
  pairTermOf (sqNorm x i) (sqNorm x j) (gram x i j) (i.val < j.val)

/-- The inter loss: the pairs' terms summed, over the number of pairs. -/
def inter (x : Samples) : EReal :=
  Ideal.div (∑ i : Fin 8192, ∑ j : Fin 8192, pairTerm x i j) (Ideal.ofBits .f32 0x4BFFF800#32)

/-- The intra loss: the samples' terms summed, over the number of samples. -/
def intra (x : Samples) : EReal :=
  Ideal.div (∑ g : Fin 8192, ∑ p : Fin 16, sampleTermOf (group x g) p) (Ideal.ofBits .f32 0x48000000#32)

end Cert.Spec

end
-- ==== Proof.KI.HostValues.lean ====
/-
  What the host stretches around the two regions compute, read at an index on the extended reals.

  Before the first region the argument is regrouped (two reshapes). Between the regions the centres' squared norms
  are formed: the elementwise square summed along the features, laid out once as a column and once as a row. After
  the second region each of the two one-element sums is reshaped to a scalar and divided by its count.
-/
import proofs.«117935_j33621003993451_1_alg».proof.Proof.KI.Run
import proofs.«117935_j33621003993451_1_alg».proof.Proof.Spec
import Idealize.ShloMosaic.PureOps.Ideal.Laws
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo
open scoped BigOperators

variable (m : (ℓ : Loc nD τ sig) → Buf (Elt Ideal) ℓ) (ρ : Dev nD → PrngReg) (c : Dev nD)

/-! ## The stretches' results as terms of what they find -/

/-- The first region's samples: the argument reshaped twice. -/
theorem entry_samples : V1 m ρ c main_v1
    = shapeCast S8192x16x128 (shapeCast S131072x128 (m ((c : Thread nD τ).loc main_arg0)) shapeCasts_S131072x64x1x1x2_S131072x128) shapeCasts_S131072x128_S8192x16x128 := by
  show StableHlo.after hostOps0 (W0 m ρ c) (Proc.devRef .tc main_v1) = _
  after_results; rfl

/-- The squared norms' column, from the centres the first region left. -/
theorem entry_sqCol : V3 m ρ c main_v5
    = broadcastInDim S8192x1 ![0] bcast_S8192_S8192x1_0 (Host.reduceAdd (mulf (V2 m ρ c main_v2_0) (V2 m ρ c main_v2_0))
        (constant (F := Ideal) S_ .f32 0x00000000#32) reducesTo_S8192x128_S8192_d1 h_S_) := by
  show StableHlo.after hostOps1 (W2 m ρ c) (Proc.devRef .tc main_v5) = _
  after_results

/-- The squared norms' row: the column reshaped. -/
theorem entry_sqRow : V3 m ρ c main_v6 = shapeCast S1x8192 (V3 m ρ c main_v5) shapeCasts_S8192x1_S1x8192 := by
  show StableHlo.after hostOps1 (W2 m ρ c) (Proc.devRef .tc main_v6) = shapeCast S1x8192 (StableHlo.after hostOps1 (W2 m ρ c) (Proc.devRef .tc main_v5)) _
  after_results; rfl

/-- The centres reach the second region as the first left them. -/
theorem entry_centers : V3 m ρ c main_v2_0 = V2 m ρ c main_v2_0 := by
  show StableHlo.after hostOps1 (W2 m ρ c) (Proc.devRef .tc main_v2_0) = _
  after_results

/-- The first result: the second region's sum, as a scalar, over the number of pairs. -/
theorem final_inter : W5 m ρ c (Proc.devRef .tc main_v9)
    = Host.divf (shapeCast S_ (V4 m ρ c main_v7) shapeCasts_S1x1_S_) (constant (F := Ideal) S_ .f32 0x4BFFF800#32) := by
  show StableHlo.after hostOps2 (W4 m ρ c) (Proc.devRef .tc main_v9) = _
  after_results; rfl

/-- The second result: the first region's sum, as a scalar, over the number of samples. -/
theorem final_intra : W5 m ρ c (Proc.devRef .tc main_v11)
    = Host.divf (shapeCast S_ (V4 m ρ c main_v2_1) shapeCasts_S1x1_S_) (constant (F := Ideal) S_ .f32 0x48000000#32) := by
  show StableHlo.after hostOps2 (W4 m ρ c) (Proc.devRef .tc main_v11) = _
  after_results; rfl

/-! ## Read at an index -/

/-- The squared norm of row `i`, as the column holds it: the sum over the features of the squares. -/
theorem sqCol_at (cen : (⟨S8192x128, .f32⟩ : BufTy).Contents (Elt Ideal)) (i : Fin 8192) :
    broadcastInDim S8192x1 ![0] bcast_S8192_S8192x1_0 (Host.reduceAdd (mulf cen cen)
        (constant (F := Ideal) S_ .f32 0x00000000#32) reducesTo_S8192x128_S8192_d1 h_S_) (ix2 i 0)
      = ∑ d : Fin 128, cen (ix2 i d) * cen (ix2 i d) := by
  rw [broadcastInDim_apply _ bcast_S8192_S8192x1_0 _ (ix2 i 0) (ix1 i) (fun a => match a with
    | ⟨0, _⟩ => by show i.val = if (8192 : Nat) = 1 then 0 else i.val; rw [if_neg (by decide)])]
  simp only [Host.reduceAdd, Ideal.hostReduceAdd_def]
  rw [Ideal.hostReduceAdd_single reducesTo_S8192x128_S8192_d1 (by decide)]
  rw [show constant (F := Ideal) S_ .f32 0x00000000#32 (Shape.Idx.first h_S_) = 0 from Ideal.ofBits_zero_f32, zero_add]
  refine Finset.sum_congr rfl fun k _ => ?_
  exact congrArg (fun z => cen z * cen z) (funext fun a => Fin.ext (by match a with | ⟨0, _⟩ => rfl | ⟨1, _⟩ => rfl))

/-- The row holds at column `j` what the column holds at row `j`. -/
theorem sqRow_at (col : (⟨S8192x1, .f32⟩ : BufTy).Contents (Elt Ideal)) (j : Fin 8192) :
    shapeCast S1x8192 col shapeCasts_S8192x1_S1x8192 (ix2 0 j) = col (ix2 j 0) := by
  refine shapeCast_apply col shapeCasts_S8192x1_S1x8192 (ix2 0 j) (ix2 j 0) ?_
  rewrite [Shape.rowMajor_val_two, Shape.rowMajor_val_two]
  show j.val * 1 + 0 = 0 * 8192 + j.val
  omega

/-- A one-element array as a scalar, over a count. -/
theorem quotient_at (acc : (⟨S1x1, .f32⟩ : BufTy).Contents (Elt Ideal)) (w : BitVec 32) :
    Host.divf (shapeCast S_ acc shapeCasts_S1x1_S_) (constant (F := Ideal) S_ .f32 w) ix0 = Ideal.div (acc (ix2 0 0)) (Ideal.ofBits .f32 w) := by
  show Ideal.div (shapeCast S_ acc shapeCasts_S1x1_S_ ix0) (Ideal.ofBits .f32 w) = _
  rw [shapeCast_apply acc shapeCasts_S1x1_S_ ix0 (ix2 0 0) (by
    rewrite [Shape.rowMajor_val_two]
    have h : (S_.rowMajor ix0).val < 1 := (S_.rowMajor ix0).isLt
    show 0 * 1 + 0 = _
    omega)]

end Cert.KernelIdeal.Hand

end
-- ==== Proof.KI.Pieces.lean ====
/-
  What the two kernels' bodies leave in their output buffers, in closed form over the bodies' arithmetic.

  Every store either kernel makes covers the whole of its buffer, and every load reads a whole buffer. So a buffer
  that ends with a list of stores reads back as the payload of its LAST store, and a load of a buffer whose contents
  are known reads those contents. For the first kernel: the means' buffer ends holding the tile's means, at the first
  point and at every later one; the accumulator ends holding the tile's sum of squared excesses added to the zero
  block at the first point (the block is cleared and then read back: the read-back is the cleared block itself), and
  added to its previous contents at a later point. For the second kernel the accumulator likewise ends holding the
  point's sum of pair terms added to the zero block, or to its previous contents.

  All six equations hold for every float instance: nothing here looks inside the arithmetic.
-/
import proofs.«117935_j33621003993451_1_alg».proof.Proof.KI.Region0
import proofs.«117935_j33621003993451_1_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two-axis zero offsets, however spelt. -/
theorem hz2 : (![0, 0] : Fin 2 → Nat) = fun _ => 0 := funext fun a => by fin_cases a <;> rfl
/-- The three-axis zero offsets, however spelt. -/
theorem hz3 : (![0, 0, 0] : Fin 3 → Nat) = fun _ => 0 := funext fun a => by fin_cases a <;> rfl

/-- At the first point the means' buffer ends with one store over its whole block: the tile's means. -/
theorem means_first_eq (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) :
    means_first c i arg1 harg1 arg2 harg2 arg3 harg3 hc x0 = k0_pay2 x0 := by
  unfold means_first
  rw [View.read_writes_eq_canon _ _ _ (coverMeans_first c i arg1 harg1 arg2 harg2 arg3 harg3 hc x0)]
  unfold run0_first
  dsimp only
  rw [View.canon_unit_zero (S := S512x128) hz2]
  simp only [View.readAt_eq_ld, harg1.read_unread, View.ld_unit_zero (S := S512x16x128) hz3]

/-- At a later point likewise: the means do not depend on the accumulator. -/
theorem means_later_eq (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) :
    means_later c i arg1 harg1 arg2 harg2 arg3 harg3 hc x0 acc = k0_pay2 x0 := by
  unfold means_later
  rw [View.read_writes_eq_canon _ _ _ (coverMeans_later c i arg1 harg1 arg2 harg2 arg3 harg3 hc x0 acc)]
  unfold run0_later
  dsimp only
  rw [View.canon_unit_zero (S := S512x128) hz2]
  simp only [View.readAt_eq_ld, harg1.read_unread, View.ld_unit_zero (S := S512x16x128) hz3]

/-- At the first point the accumulator is cleared, read back, and left at the zero block plus the tile's sum: its
    last store covers it, and the value that store adds to is the cleared block read back. -/
theorem acc_first_eq (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : clears0 i) (x0 : Vec F S512x16x128 .f32) :
    acc_first c i arg1 harg1 arg2 harg2 arg3 harg3 hc x0 = k0_pay4 x0 (k0_pay3 (F := F)) := by
  unfold acc_first
  rw [View.read_writes_eq_canon _ _ _ (coverAcc_first c i arg1 harg1 arg2 harg2 arg3 harg3 hc x0)]
  unfold run0_first
  dsimp only
  sl_unfold_words
  rw [View.canon_cons_unit_zero (S := S1x1) hz2, View.readCov_unit_zero (S := S1x1) _ hz2]
  simp only [View.readAt_eq_ld, harg1.read_unread, View.ld_unit_zero (S := S512x16x128) hz3]

/-- At a later point the accumulator is left at its previous contents plus the tile's sum. -/
theorem acc_later_eq (c : Dev nD) (i : grid0.Coords) (arg1 : Memref sig .tc .vmem S512x16x128 .f32) (harg1 : arg1.IsWhole)
    (arg2 : Memref sig .tc .vmem S512x128 .f32) (harg2 : arg2.IsWhole) (arg3 : Memref sig .tc .vmem S1x1 .f32) (harg3 : arg3.IsWhole)
    (hc : ¬clears0 i) (x0 : Vec F S512x16x128 .f32) (acc : Vec F S1x1 .f32) :
    acc_later c i arg1 harg1 arg2 harg2 arg3 harg3 hc x0 acc = k0_pay4 x0 acc := by
  unfold acc_later
  rw [View.read_writes_eq_canon _ _ _ (coverAcc_later c i arg1 harg1 arg2 harg2 arg3 harg3 hc x0 acc)]
  unfold run0_later
  dsimp only
  rw [View.canon_unit_zero (S := S1x1) hz2]
  simp only [View.readAt_eq_ld, harg1.read_unread, harg3.read_unread, View.ld_unit_zero (S := S512x16x128) hz3,
    View.ld_unit_zero (S := S1x1) hz2]

/-- The second kernel at its first point: the accumulator is cleared, read back, and left at the zero block plus
    the point's sum of pair terms. -/
theorem acc1_first_eq (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : clears1 i) (x0 : Vec F S128x128 .f32) (x1 : Vec F S8192x128 .f32) (x2 : Vec F S128x1 .f32) (x3 : Vec F S1x8192 .f32) :
    acc1_first c i arg1 harg1 arg2 harg2 arg3 harg3 arg4 harg4 arg5 harg5 hc x0 x1 x2 x3 = k1_pay2 (k1_pay3 i x0 x1 x2 x3) (k1_pay1 (F := F)) := by
  unfold acc1_first
  rw [View.read_writes_eq_canon _ _ _ (coverAcc1_first c i arg1 harg1 arg2 harg2 arg3 harg3 arg4 harg4 arg5 harg5 hc x0 x1 x2 x3)]
  unfold run1_first
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread,
    View.ld_unit_zero (S := S128x128) hz2, View.ld_unit_zero (S := S8192x128) hz2,
    View.ld_unit_zero (S := S128x1) hz2, View.ld_unit_zero (S := S1x8192) hz2]

/-- The second kernel at a later point: the accumulator is left at its previous contents plus the point's sum. -/
theorem acc1_later_eq (c : Dev nD) (i : grid1.Coords) (arg1 : Memref sig .tc .vmem S128x128 .f32) (harg1 : arg1.IsWhole)
    (arg2 : Memref sig .tc .vmem S8192x128 .f32) (harg2 : arg2.IsWhole) (arg3 : Memref sig .tc .vmem S128x1 .f32) (harg3 : arg3.IsWhole)
    (arg4 : Memref sig .tc .vmem S1x8192 .f32) (harg4 : arg4.IsWhole) (arg5 : Memref sig .tc .vmem S1x1 .f32) (harg5 : arg5.IsWhole)
    (hc : ¬clears1 i) (x0 : Vec F S128x128 .f32) (x1 : Vec F S8192x128 .f32) (x2 : Vec F S128x1 .f32) (x3 : Vec F S1x8192 .f32) (acc : Vec F S1x1 .f32) :
    acc1_later c i arg1 harg1 arg2 harg2 arg3 harg3 arg4 harg4 arg5 harg5 hc x0 x1 x2 x3 acc = k1_pay2 (k1_pay3 i x0 x1 x2 x3) acc := by
  unfold acc1_later
  rw [View.read_writes_eq_canon _ _ _ (coverAcc1_later c i arg1 harg1 arg2 harg2 arg3 harg3 arg4 harg4 arg5 harg5 hc x0 x1 x2 x3 acc)]
  unfold run1_later
  dsimp only
  sl_unfold_words
  rw [View.canon_unit_zero (S := S1x1) hz2]
  simp only [View.readAt_eq_ld, harg1.read_unread, harg2.read_unread, harg3.read_unread, harg4.read_unread,
    harg5.read_unread, View.ld_unit_zero (S := S128x128) hz2, View.ld_unit_zero (S := S8192x128) hz2,
    View.ld_unit_zero (S := S128x1) hz2, View.ld_unit_zero (S := S1x8192) hz2, View.ld_unit_zero (S := S1x1) hz2]

end Cert.KernelIdeal.Hand

end
-- ==== Proof.TileMath.lean ====
/-
  The two kernels' tiles, read entry by entry on the extended reals.

  The first kernel works on a tile of 512 groups of 16 samples of 128 features. It takes each group's mean,
  feature by feature, and adds to a one-entry accumulator the tile's share of the intra loss: over every sample of
  the tile, the squared excess over the margin of the sample's distance to its group's mean. The second kernel
  works on 128 rows of centres against all 8192 centres. From the rows' and the columns' squared norms and the
  inner products it forms every clamped squared distance, keeps the pairs whose row index lies below the column
  index, and sums their squared shortfalls.

  Each statement below says that one of these tile values is a sum of the specification's pieces: the mean of a
  group, a sample's term, a pair's term. The operations between are of two kinds. Entrywise operations act on an
  entry alone, and on the extended reals they are the operations of the same name. The others move or gather
  entries: a sum along one axis is the finite sum over that axis' coordinates; a change of shape or a spreading of
  a row or column over a larger shape reads one entry of its operand; the matrix product into a zero accumulator is
  the sum of products over the contracted axis; the mask compares a row number with a column number as signed
  words, which on numbers this small is the comparison of the numbers. Only the commutative-monoid laws of sums
  are used, so nothing here depends on the entries being finite.
-/
import proofs.«117935_j33621003993451_1_alg».proof.Proof.Gen.KernelIdeal.Skeleton
import proofs.«117935_j33621003993451_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.TileMath

open Idealize.ShloMosaic Idealize.ShloMosaic.ValueIdx Cert.KernelIdeal Cert.KernelIdeal.Gen
open scoped BigOperators

variable {α : Type}

/-! ## The intra tile: 512 groups of 16 samples of 128 features -/

/-- The sum over the samples of a group: at `(r, d)` the sum over `p` of the entries `(r, p, d)`. -/
theorem sum_mid (src : FVec Ideal S512x16x128 .f32) (h : S512x16x128.Reduces [1] S512x128)
    (hφ : FKind.Formats .f32) (hacc : (0x00000000#32 : BitVec 32) = 0x00000000#32) (r : Fin 512) (d : Fin 128) :
    multiReduction (F := Ideal) .add [1] S512x128 src 0x00000000#32 h hφ hacc (ix2 r d)
      = ∑ p : Fin 16, src (ix3 r p d) := by
  refine (Ideal.multiReduction_add_single src 0x00000000#32 h hφ hacc (ix2 r d)).trans ?_
  refine Finset.sum_congr rfl fun p _ => congrArg src (funext fun a => Fin.ext ?_)
  match a with
  | ⟨0, _⟩ => rfl
  | ⟨1, _⟩ => rfl
  | ⟨2, _⟩ => rfl

/-- The tile's samples recast to their own shape are the samples. -/
theorem pay1_eq (v0 : Vec Ideal S512x16x128 .f32) : k0_pay1 (F := Ideal) v0 = v0 :=
  shapeCast_self v0 _

/-- The tile's means: entry `(r, d)` is feature `d` of the mean of group `r`'s sixteen samples. -/
theorem mean_apply (v0 : Vec Ideal S512x16x128 .f32) (r : Fin 512) (d : Fin 128) :
    k0_pay2 (F := Ideal) v0 (ix2 r d) = Cert.Spec.meanOf (fun p d => v0 (ix3 r p d)) d := by
  unfold k0_pay2
  rw [pay1_eq]
  show Ideal.div (multiReduction (F := Ideal) .add [1] S512x128 v0 0x00000000#32 _ _ _ (ix2 r d))
      (Ideal.ofBits .f32 0x41800000#32) = _
  rw [sum_mid]
  rfl

/-- A `[512, 128]` vector given a unit middle axis reads, at `(r, u, d)`, its entry `(r, d)`. -/
theorem cast_mid_unit (x : S512x128.Idx → α) (h : S512x128.ShapeCasts S512x1x128) (r : Fin 512) (u : Fin 1)
    (d : Fin 128) : shapeCast S512x1x128 x h (ix3 r u d) = x (ix2 r d) :=
  shapeCast_apply x h _ _ (by
    have hu : u.val = 0 := by omega
    rw [Shape.rowMajor_val_two, Shape.rowMajor_val_three]
    show r.val * 128 + d.val = (r.val * 1 + u.val) * 128 + d.val
    rw [hu, Nat.mul_one, Nat.add_zero])

/-- A `[512, 1, 128]` vector spread over sixteen samples reads, at `(r, p, d)`, its entry `(r, 0, d)`. -/
theorem bcast_mid (x : S512x1x128.Idx → α) (h : S512x1x128.Broadcasts S512x16x128) (r : Fin 512) (p : Fin 16)
    (d : Fin 128) : broadcastTo S512x16x128 x h (ix3 r p d) = x (ix3 r (0 : Fin 1) d) := by
  refine broadcastTo_apply x h (ix3 r p d) (ix3 r (0 : Fin 1) d) fun ax => ?_
  match ax with
  | ⟨0, _⟩ => rfl
  | ⟨1, _⟩ => rfl
  | ⟨2, _⟩ => rfl

/-- The sum over the features of a sample: at `(r, p)` the sum over `d` of the entries `(r, p, d)`. -/
theorem sum_last (src : FVec Ideal S512x16x128 .f32) (h : S512x16x128.Reduces [2] S512x16)
    (hφ : FKind.Formats .f32) (hacc : (0x00000000#32 : BitVec 32) = 0x00000000#32) (r : Fin 512) (p : Fin 16) :
    multiReduction (F := Ideal) .add [2] S512x16 src 0x00000000#32 h hφ hacc (ix2 r p)
      = ∑ d : Fin 128, src (ix3 r p d) := by
  refine (Ideal.multiReduction_add_single src 0x00000000#32 h hφ hacc (ix2 r p)).trans ?_
  refine Finset.sum_congr rfl fun d _ => congrArg src (funext fun a => Fin.ext ?_)
  match a with
  | ⟨0, _⟩ => rfl
  | ⟨1, _⟩ => rfl
  | ⟨2, _⟩ => rfl

/-- The sum over a group's samples of a `[512, 16]` vector. -/
theorem sum_row16 (src : FVec Ideal S512x16 .f32) (h : S512x16.Reduces [1] S512)
    (hφ : FKind.Formats .f32) (hacc : (0x00000000#32 : BitVec 32) = 0x00000000#32) (r : Fin 512) :
    multiReduction (F := Ideal) .add [1] S512 src 0x00000000#32 h hφ hacc (ix1 r)
      = ∑ p : Fin 16, src (ix2 r p) := by
  refine (Ideal.multiReduction_add_single src 0x00000000#32 h hφ hacc (ix1 r)).trans ?_
  refine Finset.sum_congr rfl fun p _ => congrArg src (funext fun a => Fin.ext ?_)
  match a with
  | ⟨0, _⟩ => rfl
  | ⟨1, _⟩ => rfl

/-- A `[512]` vector as a `[512, 1]` column. -/
theorem cast_col512 (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- The sum down a `[512, 1]` column. -/
theorem sum_col512 (src : FVec Ideal S512x1 .f32) (h : S512x1.Reduces [0] S1)
    (hφ : FKind.Formats .f32) (hacc : (0x00000000#32 : BitVec 32) = 0x00000000#32) (u : Fin 1) :
    multiReduction (F := Ideal) .add [0] S1 src 0x00000000#32 h hφ hacc (ix1 u)
      = ∑ r : Fin 512, src (ix2 r u) := by
  refine (Ideal.multiReduction_add_single src 0x00000000#32 h hφ hacc (ix1 u)).trans ?_
  refine Finset.sum_congr rfl fun r _ => congrArg src (funext fun a => Fin.ext ?_)
  match a with
  | ⟨0, _⟩ => rfl
  | ⟨1, _⟩ => rfl

/-- The centre, given a unit axis and spread over the sixteen samples, read at sample `(r, p, d)` is the centre at `(r, d)`. -/
theorem center_bcast (c : S512x128.Idx → α) (h1 : S512x128.ShapeCasts S512x1x128)
    (h2 : S512x1x128.Broadcasts S512x16x128) (r : Fin 512) (p : Fin 16) (d : Fin 128) :
    broadcastTo S512x16x128 (shapeCast S512x1x128 c h1) h2 (ix3 r p d) = c (ix2 r d) :=
  (bcast_mid _ h2 r p d).trans (cast_mid_unit c h1 r 0 d)

/-- The squared distance of sample `(r, p)` to the centre `c` of its group: the sum over the features of the squared
    differences. -/
theorem sqdist (v : FVec Ideal S512x16x128 .f32) (c : FVec Ideal S512x128 .f32)
    (h1 : S512x128.ShapeCasts S512x1x128) (h2 : S512x1x128.Broadcasts S512x16x128)
    (h : S512x16x128.Reduces [2] S512x16) (hφ : FKind.Formats .f32)
    (hacc : (0x00000000#32 : BitVec 32) = 0x00000000#32) (r : Fin 512) (p : Fin 16) :
    multiReduction (F := Ideal) .add [2] S512x16
        (mulf (subf v (broadcastTo S512x16x128 (shapeCast S512x1x128 c h1) h2))
          (subf v (broadcastTo S512x16x128 (shapeCast S512x1x128 c h1) h2)))
        0x00000000#32 h hφ hacc (ix2 r p)
      = ∑ d : Fin 128, (v (ix3 r p d) - c (ix2 r d)) * (v (ix3 r p d) - c (ix2 r d)) := by
  refine (sum_last _ h hφ hacc r p).trans (Finset.sum_congr rfl fun d _ => ?_)
  show (v (ix3 r p d) - broadcastTo S512x16x128 (shapeCast S512x1x128 c h1) h2 (ix3 r p d))
      * (v (ix3 r p d) - broadcastTo S512x16x128 (shapeCast S512x1x128 c h1) h2 (ix3 r p d)) = _
  rw [center_bcast]

/-- From a squared distance to the squared excess of the distance over the margin, entry by entry; the zero word is
    the extended real zero. -/
theorem excess_elem (s : FVec Ideal S512x16 .f32) (r : Fin 512) (p : Fin 16) :
    mulf
        (maximumf (subf (sqrt s) (broadcast S512x16 (Scalar.ofBits (F := Ideal) .f32 0x3DCCCCCD#32)))
          (broadcast S512x16 (Scalar.ofBits (F := Ideal) .f32 0x00000000#32)))
        (maximumf (subf (sqrt s) (broadcast S512x16 (Scalar.ofBits (F := Ideal) .f32 0x3DCCCCCD#32)))
          (broadcast S512x16 (Scalar.ofBits (F := Ideal) .f32 0x00000000#32))) (ix2 r p)
      = Cert.Spec.excess (s (ix2 r p)) := by
  show max (Ideal.sqrt (s (ix2 r p)) - Ideal.ofBits .f32 0x3DCCCCCD#32) (Ideal.ofBits .f32 0x00000000#32)
      * max (Ideal.sqrt (s (ix2 r p)) - Ideal.ofBits .f32 0x3DCCCCCD#32) (Ideal.ofBits .f32 0x00000000#32) = _
  rw [Ideal.ofBits_zero_f32]
  rfl

/-- Each group's samples summed, then the column of group sums summed: the sum over every entry, groups outermost. -/
theorem total_sum (e : FVec Ideal S512x16 .f32) (h1 : S512x16.Reduces [1] S512) (h2 : S512.ShapeCasts S512x1)
    (h3 : S512x1.Reduces [0] S1) (h4 : S1.ShapeCasts S1x1) (hφ hφ' : FKind.Formats .f32)
    (hacc hacc' : (0x00000000#32 : BitVec 32) = 0x00000000#32) :
    shapeCast S1x1
        (multiReduction (F := Ideal) .add [0] S1
          (shapeCast S512x1 (multiReduction (F := Ideal) .add [1] S512 e 0x00000000#32 h1 hφ hacc) h2)
          0x00000000#32 h3 hφ' hacc') h4 (ix2 0 0)
      = ∑ r : Fin 512, ∑ p : Fin 16, e (ix2 r p) := by
  refine (shapeCast_a_1a_apply _ h4 0 0).trans ?_
  refine (sum_col512 _ h3 hφ' hacc' 0).trans (Finset.sum_congr rfl fun r _ => ?_)
  exact (cast_col512 _ h2 r 0).trans (sum_row16 e h1 hφ hacc r)

/-- The intra accumulator's new value: its old value plus, over the tile's 512 groups and their 16 samples, each
    sample's term. -/
theorem intra_tile (v0 : Vec Ideal S512x16x128 .f32) (v24 : Vec Ideal S1x1 .f32) :
    k0_pay4 (F := Ideal) v0 v24 (ix2 0 0)
      = v24 (ix2 0 0) + ∑ r : Fin 512, ∑ p : Fin 16, Cert.Spec.sampleTermOf (fun p d => v0 (ix3 r p d)) p := by
  unfold k0_pay4
  rw [pay1_eq]
  refine (congrArg₂ (fun a b : EReal => a + b) (congrFun (shapeCast_self v24 _) (ix2 0 0))
    (total_sum _ _ _ _ _ _ _ _ _)).trans ?_
  refine congrArg (fun s : EReal => v24 (ix2 0 0) + s)
    (Finset.sum_congr rfl fun r _ => Finset.sum_congr rfl fun p _ => ?_)
  refine (excess_elem _ r p).trans ?_
  unfold Cert.Spec.sampleTermOf
  refine congrArg Cert.Spec.excess ?_
  refine (sqdist v0 (k0_pay2 v0) _ _ _ _ _ r p).trans (Finset.sum_congr rfl fun d _ => ?_)
  rw [mean_apply]

/-! ## The inter tile: 128 rows of centres against all 8192 -/

/-- A `[128, 1]` column spread over 8192 columns reads, at `(r, j)`, the column's entry `r`. -/
theorem bcast_col128 (x : S128x1.Idx → α) (h : S128x1.Broadcasts S128x8192) (r : Fin 128) (j : Fin 8192) :
    broadcastTo S128x8192 x h (ix2 r j) = x (ix2 r (0 : Fin 1)) := by
  refine broadcastTo_apply x h (ix2 r j) (ix2 r (0 : Fin 1)) fun ax => ?_
  match ax with
  | ⟨0, _⟩ => rfl
  | ⟨1, _⟩ => rfl

/-- The sum along a row of a `[128, 8192]` vector. -/
theorem sum_row8192 (src : FVec Ideal S128x8192 .f32) (h : S128x8192.Reduces [1] S128)
    (hφ : FKind.Formats .f32) (hacc : (0x00000000#32 : BitVec 32) = 0x00000000#32) (r : Fin 128) :
    multiReduction (F := Ideal) .add [1] S128 src 0x00000000#32 h hφ hacc (ix1 r)
      = ∑ j : Fin 8192, src (ix2 r j) := by
  refine (Ideal.multiReduction_add_single src 0x00000000#32 h hφ hacc (ix1 r)).trans ?_
  refine Finset.sum_congr rfl fun j _ => congrArg src (funext fun a => Fin.ext ?_)
  match a with
  | ⟨0, _⟩ => rfl
  | ⟨1, _⟩ => rfl

/-- A `[128]` vector as a `[128, 1]` column. -/
theorem cast_col128 (x : S128.Idx → α) (h : S128.ShapeCasts S128x1) (r : Fin 128) (u : Fin 1) :
    shapeCast S128x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- The sum down a `[128, 1]` column. -/
theorem sum_col128 (src : FVec Ideal S128x1 .f32) (h : S128x1.Reduces [0] S1)
    (hφ : FKind.Formats .f32) (hacc : (0x00000000#32 : BitVec 32) = 0x00000000#32) (u : Fin 1) :
    multiReduction (F := Ideal) .add [0] S1 src 0x00000000#32 h hφ hacc (ix1 u)
      = ∑ r : Fin 128, src (ix2 r u) := by
  refine (Ideal.multiReduction_add_single src 0x00000000#32 h hφ hacc (ix1 u)).trans ?_
  refine Finset.sum_congr rfl fun r _ => congrArg src (funext fun a => Fin.ext ?_)
  match a with
  | ⟨0, _⟩ => rfl
  | ⟨1, _⟩ => rfl

/-- Rows summed, then the column of row sums summed: the sum over every entry, rows outermost. -/
theorem total_sum1 (e : FVec Ideal S128x8192 .f32) (h1 : S128x8192.Reduces [1] S128) (h2 : S128.ShapeCasts S128x1)
    (h3 : S128x1.Reduces [0] S1) (h4 : S1.ShapeCasts S1x1) (hφ hφ' : FKind.Formats .f32)
    (hacc hacc' : (0x00000000#32 : BitVec 32) = 0x00000000#32) :
    shapeCast S1x1
        (multiReduction (F := Ideal) .add [0] S1
          (shapeCast S128x1 (multiReduction (F := Ideal) .add [1] S128 e 0x00000000#32 h1 hφ hacc) h2)
          0x00000000#32 h3 hφ' hacc') h4 (ix2 0 0)
      = ∑ r : Fin 128, ∑ j : Fin 8192, e (ix2 r j) := by
  refine (shapeCast_a_1a_apply _ h4 0 0).trans ?_
  refine (sum_col128 _ h3 hφ' hacc' 0).trans (Finset.sum_congr rfl fun r _ => ?_)
  exact (cast_col128 _ h2 r 0).trans (sum_row8192 e h1 hφ hacc r)

/-! ### The matrix product -/

/-- The left operand's index at output `(r, j)`: row `r` … -/
theorem lhs_row (i : S128x8192.Idx) (q : dot_S128x128_S8192x128_S128x8192_1_1_0_0_n_n.contr.Idx) :
    (dot_S128x128_S8192x128_S128x8192_1_1_0_0_n_n.lhsIdx i q 0).val = (i 0).val := by
  unfold DotDims.lhsIdx
  rw [dif_neg (show ¬(0 : Fin S128x128.rank) ∈ dot_S128x128_S8192x128_S128x8192_1_1_0_0_n_n.lhsBatch by decide),
    dif_pos (show (0 : Fin S128x128.rank) ∈ dot_S128x128_S8192x128_S128x8192_1_1_0_0_n_n.lhsNonContracting by decide)]
  rfl

/-- … and the contraction coordinate as its column. -/
theorem lhs_contr (i : S128x8192.Idx) (q : dot_S128x128_S8192x128_S128x8192_1_1_0_0_n_n.contr.Idx) :
    (dot_S128x128_S8192x128_S128x8192_1_1_0_0_n_n.lhsIdx i q 1).val = (q ⟨0, by decide⟩).val :=
  dot_S128x128_S8192x128_S128x8192_1_1_0_0_n_n.lhsIdx_val_of_single rfl i q

/-- The right operand's index at output `(r, j)`: row `j` … -/
theorem rhs_row (i : S128x8192.Idx) (q : dot_S128x128_S8192x128_S128x8192_1_1_0_0_n_n.contr.Idx) :
    (dot_S128x128_S8192x128_S128x8192_1_1_0_0_n_n.rhsIdx i q 0).val = (i 1).val := by
  unfold DotDims.rhsIdx
  rw [dif_neg (show ¬(0 : Fin S8192x128.rank) ∈ dot_S128x128_S8192x128_S128x8192_1_1_0_0_n_n.rhsBatch by decide),
    dif_pos (show (0 : Fin S8192x128.rank) ∈ dot_S128x128_S8192x128_S128x8192_1_1_0_0_n_n.rhsNonContracting by decide)]
  rfl

/-- … and the contraction coordinate as its column. -/
theorem rhs_contr (i : S128x8192.Idx) (q : dot_S128x128_S8192x128_S128x8192_1_1_0_0_n_n.contr.Idx) :
    (dot_S128x128_S8192x128_S128x8192_1_1_0_0_n_n.rhsIdx i q 1).val = (q ⟨0, by decide⟩).val :=
  dot_S128x128_S8192x128_S128x8192_1_1_0_0_n_n.rhsIdx_val_of_single rfl i q

/-- The product of the tile's rows with ALL rows, both contracted along their features, into a zero accumulator:
    entry `(r, j)` is the inner product of row `r` of the tile and row `j` of the whole. -/
theorem gram_apply (l : FVec Ideal S128x128 .bf16) (w : FVec Ideal S8192x128 .bf16) (r : Fin 128) (j : Fin 8192) :
    matmul (F := Ideal) dot_S128x128_S8192x128_S128x8192_1_1_0_0_n_n none l w
        (constant (F := Ideal) S128x8192 .f32 0x00000000#32) (ix2 r j)
      = ∑ k : Fin 128, l (ix2 r k) * w (ix2 j k) := by
  simp only [matmul]
  rw [Ideal.matmul_constant_zero_apply,
    ← Equiv.sum_comp (contrEquiv1 dot_S128x128_S8192x128_S128x8192_1_1_0_0_n_n 128 rfl rfl).symm]
  refine Finset.sum_congr rfl fun k _ => ?_
  have hk := contrEquiv1_symm_val dot_S128x128_S8192x128_S128x8192_1_1_0_0_n_n 128 rfl rfl k
  have el : dot_S128x128_S8192x128_S128x8192_1_1_0_0_n_n.lhsIdx (ix2 r j)
      ((contrEquiv1 dot_S128x128_S8192x128_S128x8192_1_1_0_0_n_n 128 rfl rfl).symm k) = ix2 r k :=
    funext fun a => Fin.ext (by
      match a with
      | ⟨0, _⟩ => exact lhs_row _ _
      | ⟨1, _⟩ => exact (lhs_contr _ _).trans hk)
  have er : dot_S128x128_S8192x128_S128x8192_1_1_0_0_n_n.rhsIdx (ix2 r j)
      ((contrEquiv1 dot_S128x128_S8192x128_S128x8192_1_1_0_0_n_n 128 rfl rfl).symm k) = ix2 j k :=
    funext fun a => Fin.ext (by
      match a with
      | ⟨0, _⟩ => exact rhs_row _ _
      | ⟨1, _⟩ => exact (rhs_contr _ _).trans hk)
  rw [el, er]

/-! ### The mask: row `i * 128 + r` against column `j`, as signed 32-bit words -/

/-- On naturals below `2 ^ 31` the signed comparison of their 32-bit words is the comparison of the naturals:
    both words have a clear sign bit, so each reads as the natural itself. -/
theorem slt_ofNat (a b : Nat) (ha : a < 2147483648) (hb : b < 2147483648) :
    (BitVec.ofNat 32 a).slt (BitVec.ofNat 32 b) = decide (a < b) := by
  have h32 : (2 : Nat) ^ 32 = 4294967296 := by decide
  have ta : (BitVec.ofNat 32 a).toNat = a := by rw [BitVec.toNat_ofNat, h32]; omega
  have tb : (BitVec.ofNat 32 b).toNat = b := by rw [BitVec.toNat_ofNat, h32]; omega
  have ia : (BitVec.ofNat 32 a).toInt = (a : Int) := by
    rw [BitVec.toInt_eq_toNat_of_lt (by rw [ta, h32]; omega), ta]
  have ib : (BitVec.ofNat 32 b).toInt = (b : Int) := by
    rw [BitVec.toInt_eq_toNat_of_lt (by rw [tb, h32]; omega), tb]
  rw [BitVec.slt_eq_decide, ia, ib]
  exact decide_eq_decide.mpr Int.ofNat_lt

/-- The word `r + i * 128` is signed-below the word `j` exactly when `i * 128 + r < j`: with `i < 64`, `r < 128`
    and `j < 8192` nothing wraps. -/
theorem mask_word (i0 r j : Nat) (hi : i0 < 64) (hr : r < 128) (hj : j < 8192) :
    IntOp.cmpi .slt (IntOp.addi (BitVec.ofNat 32 r) (Scalar.muli (BitVec.ofNat 32 i0) 128#32)) (BitVec.ofNat 32 j)
      = BitVec.ofBool (decide (i0 * 128 + r < j)) := by
  show BitVec.ofBool ((BitVec.ofNat 32 r + BitVec.ofNat 32 i0 * BitVec.ofNat 32 128).slt (BitVec.ofNat 32 j)) = _
  rw [BitVec.ofNat_mul_ofNat, BitVec.ofNat_add_ofNat, slt_ofNat _ _ (by omega) (by omega)]
  refine congrArg BitVec.ofBool (decide_eq_decide.mpr ?_)
  omega

/-- A select on the bit of a decided proposition is the `if` on the proposition. -/
theorem select_mask (P : Prop) [Decidable P] (a b : α) :
    Scalar.select (BitVec.ofBool (decide P)) a b = if P then a else b := by
  by_cases h : P
  · simp [Scalar.select, h]
  · simp [Scalar.select, h]

/-- The tile's mask at `(r, j)`: the row iota plus the tile's first row, spread over the columns, signed-below the
    column iota spread over the rows. -/
theorem mask_apply (i0 : Nat) (hi : i0 < 64) (h0 : S128x1.Iotas .tc 32 [0]) (h1 : S1x8192.Iotas .tc 32 [1])
    (hb0 : S128x1.Broadcasts S128x8192) (hb1 : S1x8192.Broadcasts S128x8192) (r : Fin 128) (j : Fin 8192) :
    cmpi .slt
        (broadcastTo S128x8192
          (addi (iota .tc S128x1 32 [0] h0) (broadcast S128x1 (Scalar.muli (BitVec.ofNat 32 i0) 128#32))) hb0)
        (broadcastTo S128x8192 (iota .tc S1x8192 32 [1] h1) hb1) (ix2 r j)
      = BitVec.ofBool (decide (i0 * 128 + r.val < j.val)) := by
  show IntOp.cmpi .slt
      (broadcastTo S128x8192
        (addi (iota .tc S128x1 32 [0] h0) (broadcast S128x1 (Scalar.muli (BitVec.ofNat 32 i0) 128#32))) hb0 (ix2 r j))
      (broadcastTo S128x8192 (iota .tc S1x8192 32 [1] h1) hb1 (ix2 r j)) = _
  rw [bcast_col128, broadcastTo_1b_ab_apply]
  show IntOp.cmpi .slt
      (IntOp.addi (iota .tc S128x1 32 [0] h0 (ix2 r (0 : Fin 1))) (Scalar.muli (BitVec.ofNat 32 i0) 128#32))
      (iota .tc S1x8192 32 [1] h1 (ix2 (0 : Fin 1) j)) = _
  rw [iota_single_apply .tc S128x1 32 0 h0 (ix2 r (0 : Fin 1)), iota_single_apply .tc S1x8192 32 1 h1 (ix2 (0 : Fin 1) j)]
  exact mask_word i0 r.val j.val hi r.isLt j.isLt

/-! ### One pair's term -/

/-- A counted pair contributes the squared shortfall of its clamped squared distance, an uncounted one zero: the
    outer select is the specification's `if`, and under a set bit the inner select passes the distance through. -/
theorem pair_elem (c : BitVec 1) (P : Prop) [Decidable P] (hc : c = BitVec.ofBool (decide P)) (a b g : EReal) :
    Scalar.select c
        (max (Ideal.ofBits .f32 0x3F800000#32 - Ideal.sqrt (Scalar.select c
              (max (a + b - Ideal.ofBits .f32 0x40000000#32 * g) (Ideal.ofBits .f32 0x00000000#32))
              (Ideal.ofBits .f32 0x3F800000#32))) (Ideal.ofBits .f32 0x00000000#32)
          * max (Ideal.ofBits .f32 0x3F800000#32 - Ideal.sqrt (Scalar.select c
              (max (a + b - Ideal.ofBits .f32 0x40000000#32 * g) (Ideal.ofBits .f32 0x00000000#32))
              (Ideal.ofBits .f32 0x3F800000#32))) (Ideal.ofBits .f32 0x00000000#32))
        (Ideal.ofBits .f32 0x00000000#32)
      = Cert.Spec.pairTermOf a b g P := by
  subst hc
  rw [select_mask, select_mask, Ideal.ofBits_zero_f32]
  unfold Cert.Spec.pairTermOf Cert.Spec.shortfall
  by_cases h : P
  · simp only [if_pos h]
  · simp only [if_neg h]

/-- The same read off the vectors the tile computes with: `A` the rows' squared norms spread over the columns, `B`
    the columns' spread over the rows, `G` the inner products, `c` the mask. -/
theorem pair_apply (c : IVec S128x8192 1) (A B G : FVec Ideal S128x8192 .f32) (P : Prop) [Decidable P]
    (r : Fin 128) (j : Fin 8192) (hc : c (ix2 r j) = BitVec.ofBool (decide P)) :
    select c
        (mulf
          (maximumf
            (subf (broadcast S128x8192 (Scalar.ofBits (F := Ideal) .f32 0x3F800000#32))
              (sqrt (select c
                (maximumf
                  (subf (addf A B) (mulf (broadcast S128x8192 (Scalar.ofBits (F := Ideal) .f32 0x40000000#32)) G))
                  (broadcast S128x8192 (Scalar.ofBits (F := Ideal) .f32 0x00000000#32)))
                (broadcast S128x8192 (Scalar.ofBits (F := Ideal) .f32 0x3F800000#32)))))
            (broadcast S128x8192 (Scalar.ofBits (F := Ideal) .f32 0x00000000#32)))
          (maximumf
            (subf (broadcast S128x8192 (Scalar.ofBits (F := Ideal) .f32 0x3F800000#32))
              (sqrt (select c
                (maximumf
                  (subf (addf A B) (mulf (broadcast S128x8192 (Scalar.ofBits (F := Ideal) .f32 0x40000000#32)) G))
                  (broadcast S128x8192 (Scalar.ofBits (F := Ideal) .f32 0x00000000#32)))
                (broadcast S128x8192 (Scalar.ofBits (F := Ideal) .f32 0x3F800000#32)))))
            (broadcast S128x8192 (Scalar.ofBits (F := Ideal) .f32 0x00000000#32))))
        (broadcast S128x8192 (Scalar.ofBits (F := Ideal) .f32 0x00000000#32)) (ix2 r j)
      = Cert.Spec.pairTermOf (A (ix2 r j)) (B (ix2 r j)) (G (ix2 r j)) P :=
  pair_elem (c (ix2 r j)) P hc (A (ix2 r j)) (B (ix2 r j)) (G (ix2 r j))

/-! ### The tile's partial sum -/

/-- The tile's partial sum of the inter loss at grid point `i`: over its 128 rows and all 8192 columns, each pair's
    term, the pair counted when the row's number `i * 128 + r` among all centres lies below the column's. -/
theorem inter_tile (i : grid1.Coords) (v0 : Vec Ideal S128x128 .f32) (v3 : Vec Ideal S8192x128 .f32)
    (v7 : Vec Ideal S128x1 .f32) (v9 : Vec Ideal S1x8192 .f32) :
    k1_pay3 (F := Ideal) i v0 v3 v7 v9 (ix2 0 0)
      = ∑ r : Fin 128, ∑ j : Fin 8192,
          Cert.Spec.pairTermOf (v7 (ix2 r 0)) (v9 (ix2 0 j)) (∑ k : Fin 128, v0 (ix2 r k) * v3 (ix2 j k))
            ((i 0).val * 128 + r.val < j.val) := by
  unfold k1_pay3
  rw [shapeCast_self v0, shapeCast_self v3, shapeCast_self v7, shapeCast_self v9]
  refine (total_sum1 _ _ _ _ _ _ _ _ _).trans
    (Finset.sum_congr rfl fun r _ => Finset.sum_congr rfl fun j _ => ?_)
  refine (pair_apply _ _ _ _ ((i 0).val * 128 + r.val < j.val) r j ?hc).trans ?_
  case hc => exact mask_apply (i 0).val (i 0).isLt _ _ _ _ r j
  rw [bcast_col128, broadcastTo_1b_ab_apply, gram_apply]
  rfl

end Cert.TileMath

end
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.KI.Values0.lean ====
/-
  The first kernel's two result arrays after its region, as functions of the grouped samples the region is entered
  with.

  The region runs sixteen points. At point `t` the tile window holds rows `t * 512 … t * 512 + 511` of the grouped
  samples. The means' window is written back at every point, block `t` to rows `t * 512 …` of its array, and the
  sixteen blocks tile the array: row `g` ends holding what point `g / 512` wrote, the mean of group `g`'s samples,
  which is the specification's centre of group `g`. The accumulator's window is one entry, written back at the last
  point only. What the body leaves in it at position `n` is, by induction on `n`, the sum over tiles `0 … n` of each
  tile's share of the intra loss (the first point adds its share to the cleared entry, every later point to what
  the point before left); after the last point that is the sum over sixteen tiles of 512 groups, which regrouped
  is the sum over all 8192 groups of their samples' terms. Sums are only regrouped and reordered: nothing here asks
  the entries to be finite.
-/
import proofs.«117935_j33621003993451_1_alg».proof.Proof.KI.Region0
import proofs.«117935_j33621003993451_1_alg».proof.Proof.KI.Pieces
import proofs.«117935_j33621003993451_1_alg».proof.Proof.TileMath
import proofs.«117935_j33621003993451_1_alg».proof.Proof.LibSumTiles
import proofs.«117935_j33621003993451_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

variable (V : (c : Dev nD) → (b : Ref sig .tc) → Buf (Elt Ideal) ((c : Thread nD τ).loc b)) (c : Dev nD)

/-- The three windows' block indices over the sixteen points: the tile and the means move along the groups with the
    point, the accumulator's one block never moves. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Group `r` of tile `t` is group `t * 512 + r` of all. -/
theorem group_lt (t : Fin cfg0.N) (r : Fin 512) : t.val * 512 + r.val < 8192 := by
  have ht := t.isLt
  have hN : cfg0.N = 16 := N_0
  omega

/-- The tile at point `t` is rows `t * 512 … t * 512 + 511` of the grouped samples. -/
theorem tile0_apply (t : Fin cfg0.N) (r : Fin 512) (p : Fin 16) (d : Fin 128) :
    tile0 V c 0 t (ix3 r p d) = V c main_v1 (ix3 ⟨t.val * 512 + r.val, group_lt t r⟩ p d) := by
  obtain ⟨e0, e1, e2, -⟩ := idx_facts0 t
  unfold tile0
  rw [View.read_apply]
  show V c main_v1 (((cfg0.win 0).blk t).view.emb (ix3 r p d)) = _
  refine congrArg (V c main_v1) (funext fun a => Fin.ext ?_)
  match a with
  | ⟨0, _⟩ => show win0_0.index t (0 : Fin 3) * 512 + 1 * r.val = t.val * 512 + r.val; rw [e0]; omega
  | ⟨1, _⟩ => show win0_0.index t (1 : Fin 3) * 16 + 1 * p.val = p.val; rw [e1]; omega
  | ⟨2, _⟩ => show win0_0.index t (2 : Fin 3) * 128 + 1 * d.val = d.val; rw [e2]; omega

/-! ## The means' array -/

/-- Every group's centre, as contents of the means' array. -/
def centersOf (X : Cert.Spec.Samples) : S8192x128.Idx → EReal :=
  fun i => Cert.Spec.center X ⟨(i 0).val, idx2_lt0 i⟩ ⟨(i 1).val, idx2_lt1 i⟩

theorem centersOf_apply (X : Cert.Spec.Samples) (i : S8192x128.Idx) (g : Fin 8192) (d : Fin 128)
    (h0 : (i 0).val = g.val) (h1 : (i 1).val = d.val) : centersOf X i = Cert.Spec.center X g d := by
  unfold centersOf
  rw [show (⟨(i 0).val, idx2_lt0 i⟩ : Fin 8192) = g from Fin.ext h0,
    show (⟨(i 1).val, idx2_lt1 i⟩ : Fin 128) = d from Fin.ext h1]

/-- After the body at any point the means' buffer holds the tile's means. -/
theorem meansAt0_eq (t : Fin cfg0.N) : meansAt0 V c t = k0_pay2 (F := Ideal) (tile0 V c 0 t) := by
  by_cases h0 : t.val % 16 = 0
  · rw [meansAt0_first V c t h0, means_first_eq]
  · rw [meansAt0_later V c t h0, means_later_eq]

/-- What point `t` writes back to the means' array is block `t` of the centres. -/
theorem flushed1_eq (t : Fin cfg0.N) :
    (dat0 V c).flushed 1 t = ((cfg0.win 1).blk t).view.read (Elt Ideal) (centersOf (V c main_v1)) := by
  obtain ⟨-, -, -, e3, e4, -⟩ := idx_facts0 t
  show (cfg0.win 1).cut (grid0.coords t) ((dat0 V c).after 1 t) = _
  rw [after0_1, meansAt0_eq]
  refine funext fun (j : S512x128.Idx) => ?_
  obtain ⟨r, d, rfl⟩ : ∃ (r : Fin 512) (d : Fin 128), j = ix2 r d := ⟨j 0, j 1, eq_ix2 j⟩
  have hx : (cfg0.win 1).xinj (grid0.coords t) (ix2 r d) = (ix2 r d : S512x128.Idx) :=
    funext fun a => Fin.ext (by match a with | ⟨0, _⟩ => rfl | ⟨1, _⟩ => rfl)
  show k0_pay2 (F := Ideal) (tile0 V c 0 t) ((cfg0.win 1).xinj (grid0.coords t) (ix2 r d))
    = centersOf (V c main_v1) (((cfg0.win 1).blk t).view.emb (ix2 r d))
  rw [hx, Cert.TileMath.mean_apply]
  simp only [tile0_apply V c t r]
  refine (centersOf_apply (V c main_v1) _ ⟨t.val * 512 + r.val, group_lt t r⟩ d ?_ ?_).symm
  · show win0_1.index t (0 : Fin 2) * 512 + 1 * r.val = t.val * 512 + r.val
    rw [e3]; omega
  · show win0_1.index t (1 : Fin 2) * 128 + 1 * d.val = d.val
    rw [e4]; omega

/-- An index of the means' array is in point `t`'s block iff each coordinate is in the block's range on its axis. -/
theorem mem_blk1 (t : Fin cfg0.N) (i : S8192x128.Idx) :
    i ∈ ((cfg0.win 1).blk t).view.set ↔ ∀ a : Fin 2, win0_1.index t a * S512x128.size a ≤ (i a).val
      ∧ (i a).val < win0_1.index t a * S512x128.size a + S512x128.size a := by
  show i ∈ ((View.whole main_v2_0).slice (win0_1.rect t)).set ↔ _
  rw [View.set_slice_whole, Rect.mem_set_unit]
  exact Iff.rfl

/-- Row `g` of the means' array lies in the block of point `g / 512`. -/
theorem cover1 (i : S8192x128.Idx) :
    ∃ t : Fin cfg0.N, (cfg0.win 1).flush t = true ∧ i ∈ ((cfg0.win 1).blk t).view.set := by
  have hN : cfg0.N = 16 := N_0
  have hi0 : (i 0).val < 8192 := (i 0).isLt
  have hi1 : (i 1).val < 128 := (i 1).isLt
  refine ⟨⟨(i 0).val / 512, by omega⟩, flush0_1 _, ?_⟩
  obtain ⟨-, -, -, e3, e4, -⟩ := idx_facts0 ⟨(i 0).val / 512, by omega⟩
  rw [mem_blk1]
  intro a
  match a with
  | ⟨0, _⟩ =>
    show win0_1.index ⟨(i 0).val / 512, _⟩ (0 : Fin 2) * 512 ≤ (i 0).val
      ∧ (i 0).val < win0_1.index ⟨(i 0).val / 512, _⟩ (0 : Fin 2) * 512 + 512
    rw [e3]; dsimp only; omega
  | ⟨1, _⟩ =>
    show win0_1.index ⟨(i 0).val / 512, _⟩ (1 : Fin 2) * 128 ≤ (i 1).val
      ∧ (i 1).val < win0_1.index ⟨(i 0).val / 512, _⟩ (1 : Fin 2) * 128 + 128
    rw [e4]; omega

/-- The means' array after the region: every group's centre. -/
theorem final1 : (dat0 V c).arrAt 1 cfg0.N = centersOf (V c main_v1) :=
  (dat0 V c).arrAt_eq_of_cover 1 (centersOf (V c main_v1)) (fun t _ => flushed1_eq V c t) cover1

theorem centers_final (g : Fin 8192) (d : Fin 128) :
    (dat0 V c).arrAt 1 cfg0.N (ix2 g d) = Cert.Spec.center (V c main_v1 : Cert.Spec.Samples) g d :=
  (congrFun (final1 V c) (ix2 g d)).trans (centersOf_apply (V c main_v1) (ix2 g d) g d rfl rfl)

/-! ## The accumulator -/

/-- Tile `t`'s share of the intra loss: its 512 groups' samples' terms (zero past the sixteen tiles). -/
def tileTerm (X : Cert.Spec.Samples) (t : ℕ) : EReal :=
  if h : t < 16 then
    ∑ r : Fin 512, ∑ p : Fin 16, Cert.Spec.sampleTermOf (Cert.Spec.group X ⟨t * 512 + r.val, by omega⟩) p
  else 0

/-- The tile at point `t`, read as sums of the specification's sample terms, is tile `t`'s share. -/
theorem tile_sum (t : Fin cfg0.N) :
    (∑ r : Fin 512, ∑ p : Fin 16, Cert.Spec.sampleTermOf (fun p d => tile0 V c 0 t (ix3 r p d)) p)
      = tileTerm (V c main_v1) t.val := by
  have hN : cfg0.N = 16 := N_0
  have ht : t.val < 16 := by have := t.isLt; omega
  unfold tileTerm
  rw [dif_pos ht]
  refine Finset.sum_congr rfl fun r _ => Finset.sum_congr rfl fun p _ => ?_
  simp only [tile0_apply V c t r]
  rfl

/-- The zero block's one entry is zero. -/
theorem zero_block : k0_pay3 (F := Ideal) (ix2 0 0) = 0 := by
  unfold k0_pay3
  show Ideal.ofBits .f32 0x00000000#32 = 0
  exact Ideal.ofBits_zero_f32

/-- THE RUNNING SUM, in closed form: after the body at position `n` the accumulator holds the shares of tiles
    `0 … n`. By induction on the position: the first point adds its share to the cleared block, every later one to
    what the point before left. -/
theorem accAt0_eq : ∀ (n : ℕ) (hn : n < cfg0.N),
    accAt0 V c n hn (ix2 0 0) = ∑ t ∈ Finset.range (n + 1), tileTerm (V c main_v1) t
  | 0, hn => by
    rw [accAt0_first V c ⟨0, hn⟩ (Nat.zero_mod 16), acc_first_eq, Cert.TileMath.intra_tile, zero_block, zero_add,
      tile_sum V c ⟨0, hn⟩, Finset.sum_range_one]
  | n + 1, hn => by
    have hN : cfg0.N = 16 := N_0
    have h0 : ¬(⟨n + 1, hn⟩ : Fin cfg0.N).val % 16 = 0 := by dsimp only; omega
    rw [accAt0_later V c ⟨n + 1, hn⟩ h0, acc_later_eq, Cert.TileMath.intra_tile, tile_sum V c ⟨n + 1, hn⟩,
      Finset.sum_range_succ _ (n + 1)]
    exact congrArg (· + tileTerm (V c main_v1) (n + 1)) (accAt0_eq n (Nat.lt_of_succ_lt hn))

/-- The last point. -/
theorem last_lt : 15 < cfg0.N := by rw [show cfg0.N = 16 from N_0]; decide

/-- What the accumulator's buffer holds after the last point, as contents of the accumulator's array (its one block
    is the whole array). -/
abbrev lastAcc : Buf (Elt Ideal) ((c : Thread nD τ).loc main_v2_1) := accAt0 V c 15 last_lt

/-- The one write-back, at the last point, writes it. -/
theorem flushed2_eq (t : Fin cfg0.N) (hf : (cfg0.win 2).flush t = true) :
    (dat0 V c).flushed 2 t = ((cfg0.win 2).blk t).view.read (Elt Ideal) (lastAcc V c) := by
  have hN : cfg0.N = 16 := N_0
  have h15 : t.val = 15 := by have := (flush0_2 t).mp hf; have := t.isLt; omega
  obtain rfl : t = ⟨15, last_lt⟩ := Fin.ext h15
  obtain ⟨-, -, -, -, -, e5, e6⟩ := idx_facts0 ⟨15, last_lt⟩
  show (cfg0.win 2).cut (grid0.coords ⟨15, last_lt⟩) ((dat0 V c).after 2 ⟨15, last_lt⟩) = _
  rw [after0_2]
  refine funext fun (j : S1x1.Idx) => ?_
  show accAt0 V c 15 last_lt ((cfg0.win 2).xinj (grid0.coords ⟨15, last_lt⟩) j)
    = accAt0 V c 15 last_lt (((cfg0.win 2).blk ⟨15, last_lt⟩).view.emb j)
  refine congrArg (accAt0 V c 15 last_lt) (funext fun a => Fin.ext ?_)
  match a with
  | ⟨0, _⟩ => show (j 0).val = win0_2.index ⟨15, last_lt⟩ (0 : Fin 2) * 1 + 1 * (j 0).val; rw [e5]; omega
  | ⟨1, _⟩ => show (j 1).val = win0_2.index ⟨15, last_lt⟩ (1 : Fin 2) * 1 + 1 * (j 1).val; rw [e6]; omega

/-- The accumulator's one entry lies in the last point's block. -/
theorem cover2 (i : S1x1.Idx) :
    ∃ t : Fin cfg0.N, (cfg0.win 2).flush t = true ∧ i ∈ ((cfg0.win 2).blk t).view.set := by
  have hi0 : (i 0).val < 1 := (i 0).isLt
  have hi1 : (i 1).val < 1 := (i 1).isLt
  obtain ⟨-, -, -, -, -, e5, e6⟩ := idx_facts0 ⟨15, last_lt⟩
  refine ⟨⟨15, last_lt⟩, (flush0_2 _).mpr rfl, ?_⟩
  show i ∈ ((View.whole main_v2_1).slice (win0_2.rect ⟨15, last_lt⟩)).set
  rw [View.set_slice_whole, Rect.mem_set_unit]
  intro a
  match a with
  | ⟨0, _⟩ =>
    show win0_2.index ⟨15, last_lt⟩ (0 : Fin 2) * 1 ≤ (i 0).val
      ∧ (i 0).val < win0_2.index ⟨15, last_lt⟩ (0 : Fin 2) * 1 + 1
    rw [e5]; omega
  | ⟨1, _⟩ =>
    show win0_2.index ⟨15, last_lt⟩ (1 : Fin 2) * 1 ≤ (i 1).val
      ∧ (i 1).val < win0_2.index ⟨15, last_lt⟩ (1 : Fin 2) * 1 + 1
    rw [e6]; omega

/-- The accumulator's array after the region: what the body left at the last point. -/
theorem final2 : (dat0 V c).arrAt 2 cfg0.N = lastAcc V c :=
  (dat0 V c).arrAt_eq_of_cover 2 (lastAcc V c) (flushed2_eq V c) cover2

/-- The sixteen tiles' shares are the sum over all 8192 groups. -/
theorem tiles_total (X : Cert.Spec.Samples) :
    ∑ t ∈ Finset.range 16, tileTerm X t = ∑ g : Fin 8192, ∑ p : Fin 16, Cert.Spec.sampleTermOf (Cert.Spec.group X g) p := by
  rw [Cert.LibSumTiles.sum_tiles_16_512 (fun g : Fin 8192 => ∑ p : Fin 16, Cert.Spec.sampleTermOf (Cert.Spec.group X g) p),
    Finset.sum_range]
  refine Finset.sum_congr rfl fun t _ => ?_
  unfold tileTerm
  rw [dif_pos t.isLt]

theorem intra_final :
    (dat0 V c).arrAt 2 cfg0.N (ix2 0 0)
      = ∑ g : Fin 8192, ∑ p : Fin 16, Cert.Spec.sampleTermOf (Cert.Spec.group (V c main_v1 : Cert.Spec.Samples) g) p := by
  rw [final2]
  show accAt0 V c 15 last_lt (ix2 0 0) = _
  rw [accAt0_eq V c 15 last_lt, tiles_total]

end Cert.KernelIdeal.Hand

end
-- ==== Proof.KI.Values1.lean ====
/-
  The second kernel's result array, read off its pipeline.

  At point `t` of its 64-point grid the kernel is handed 128 rows of the centres and of their squared norms — rows
  `t * 128 .. t * 128 + 127`, because the rows' windows move with the point along the first axis — and the whole of
  both, whose windows stay at the origin. A block's element sits in its array at the block's index times the block's
  size plus its coordinate inside the block, on every axis; the indices are decided once over the grid.

  The body adds the terms of those 128 rows against every column into a one-element accumulator that is cleared at
  the first point and written back at the last point only. So after the body at position `n` the accumulator holds
  `0 + part 0 + … + part n`, by induction on the position; the accumulator's block is its whole array, so the array
  ends holding the value after position 63; and the 64 tiles of 128 rows are exactly the 8192 rows, each once, so the
  sum over the tiles of each tile's sum is the sum over all rows (re-indexing a finite sum in a commutative monoid).
-/
import proofs.«117935_j33621003993451_1_alg».proof.Proof.KI.Region1
import proofs.«117935_j33621003993451_1_alg».proof.Proof.KI.Pieces
import proofs.«117935_j33621003993451_1_alg».proof.Proof.TileMath
import proofs.«117935_j33621003993451_1_alg».proof.Proof.LibSumTiles
import proofs.«117935_j33621003993451_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The second grid has sixty-four points. -/
theorem N1_eq : cfg1.N = 64 := N_1

/-- Row `r` of the tile at point `t` is row `t * 128 + r` of all 8192. -/
theorem row_lt (t : Fin cfg1.N) (r : Fin 128) : t.val * 128 + r.val < 8192 := by
  have h : t.val < 64 := lt_of_lt_of_eq t.isLt N1_eq
  have hr : r.val < 128 := r.isLt
  omega

/-- The block indices of the five windows, decided over the grid: the rows' windows move with the point along the
    first axis, the others stay at the origin; and the point's grid coordinate is its position. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ (grid1.coords t 0).val = t.val :=
  (by decide +kernel : ∀ t : Fin grid1.N, _)

/-- The rows' tile at point `t`: 128 rows of the centres, from row `t * 128`. -/
theorem tile1_rows (c : Dev nD) (t : Fin cfg1.N) (r k : Fin 128) :
    tile1 V c 0 t (ix2 r k) = V c main_v2_0 (ix2 ⟨t.val * 128 + r.val, row_lt t r⟩ k) := by
  unfold tile1
  rw [View.read_apply]
  show V c main_v2_0 (((cfg1.win 0).blk t).view.emb (ix2 r k)) = V c main_v2_0 _
  obtain ⟨e0, e1, -⟩ := idx1_facts t
  refine congrArg (V c main_v2_0) (funext fun a => Fin.ext ?_)
  match a with
  | ⟨0, _⟩ => show win1_0.index t (0 : Fin 2) * 128 + 1 * r.val = t.val * 128 + r.val; rw [e0]; omega
  | ⟨1, _⟩ => show win1_0.index t (1 : Fin 2) * 128 + 1 * k.val = k.val; rw [e1]; omega

/-- The whole of the centres, at every point. -/
theorem tile1_all (c : Dev nD) (t : Fin cfg1.N) (j : Fin 8192) (k : Fin 128) :
    tile1 V c 1 t (ix2 j k) = V c main_v2_0 (ix2 j k) := by
  unfold tile1
  rw [View.read_apply]
  show V c main_v2_0 (((cfg1.win 1).blk t).view.emb (ix2 j k)) = V c main_v2_0 _
  obtain ⟨-, -, e0, e1, -⟩ := idx1_facts t
  refine congrArg (V c main_v2_0) (funext fun a => Fin.ext ?_)
  match a with
  | ⟨0, _⟩ => show win1_1.index t (0 : Fin 2) * 8192 + 1 * j.val = j.val; rw [e0]; omega
  | ⟨1, _⟩ => show win1_1.index t (1 : Fin 2) * 128 + 1 * k.val = k.val; rw [e1]; omega

/-- The rows' squared norms at point `t`: 128 entries of the column, from entry `t * 128`. -/
theorem tile1_sqRows (c : Dev nD) (t : Fin cfg1.N) (r : Fin 128) :
    tile1 V c 2 t (ix2 r 0) = V c main_v5 (ix2 ⟨t.val * 128 + r.val, row_lt t r⟩ 0) := by
  unfold tile1
  rw [View.read_apply]
  show V c main_v5 (((cfg1.win 2).blk t).view.emb (ix2 r 0)) = V c main_v5 _
  obtain ⟨-, -, -, -, e0, e1, -⟩ := idx1_facts t
  refine congrArg (V c main_v5) (funext fun a => Fin.ext ?_)
  match a with
  | ⟨0, _⟩ => show win1_2.index t (0 : Fin 2) * 128 + 1 * r.val = t.val * 128 + r.val; rw [e0]; omega
  | ⟨1, _⟩ => show win1_2.index t (1 : Fin 2) * 1 + 1 * 0 = 0; rw [e1]

/-- All the squared norms, as a row, at every point. -/
theorem tile1_sqAll (c : Dev nD) (t : Fin cfg1.N) (j : Fin 8192) :
    tile1 V c 3 t (ix2 0 j) = V c main_v6 (ix2 0 j) := by
  unfold tile1
  rw [View.read_apply]
  show V c main_v6 (((cfg1.win 3).blk t).view.emb (ix2 0 j)) = V c main_v6 _
  obtain ⟨-, -, -, -, -, -, e0, e1, -⟩ := idx1_facts t
  refine congrArg (V c main_v6) (funext fun a => Fin.ext ?_)
  match a with
  | ⟨0, _⟩ => show win1_3.index t (0 : Fin 2) * 1 + 1 * 0 = 0; rw [e0]
  | ⟨1, _⟩ => show win1_3.index t (1 : Fin 2) * 8192 + 1 * j.val = j.val; rw [e1]; omega

/-- The centres as the second region finds them, as an array of extended reals. -/
abbrev cen (c : Dev nD) : S8192x128.Idx → EReal := V c main_v2_0

/-- Row `i`'s terms of the inter loss: the pair `(i, j)`'s term over every column `j`, read off the centres and
    their squared norms as the second region finds them. -/
def rowTerm (c : Dev nD) (i : Fin 8192) : EReal :=
  ∑ j : Fin 8192, Cert.Spec.pairTermOf (V c main_v5 (ix2 i 0)) (V c main_v6 (ix2 0 j))
    (∑ k : Fin 128, cen V c (ix2 i k) * cen V c (ix2 j k)) (i.val < j.val)

/-- What the body adds at point `t`: the terms of the tile's 128 rows. -/
theorem tile_partial (c : Dev nD) (t : Fin cfg1.N) :
    k1_pay3 (F := Ideal) (grid1.coords t) (tile1 V c 0 t) (tile1 V c 1 t) (tile1 V c 2 t) (tile1 V c 3 t) (ix2 0 0)
      = ∑ r : Fin 128, rowTerm V c ⟨t.val * 128 + r.val, row_lt t r⟩ := by
  have hco : (grid1.coords t 0).val = t.val := (idx1_facts t).2.2.2.2.2.2.2.2.2.2
  refine (Cert.TileMath.inter_tile (grid1.coords t) (tile1 V c 0 t) (tile1 V c 1 t) (tile1 V c 2 t) (tile1 V c 3 t)).trans ?_
  refine Finset.sum_congr rfl fun r _ => ?_
  unfold rowTerm
  refine Finset.sum_congr rfl fun j _ => ?_
  rw [tile1_sqRows, tile1_sqAll, hco]
  simp only [tile1_rows, tile1_all]

/-- The accumulator's new value at its one index: the old value plus the added block's. -/
theorem pay2_apply (v40 : FVec Ideal S1x1 .f32) (v44 : Vec Ideal S1x1 .f32) :
    k1_pay2 (F := Ideal) v40 v44 (ix2 0 0) = v44 (ix2 0 0) + v40 (ix2 0 0) := by
  unfold k1_pay2
  rw [shapeCast_self v44]
  rfl

/-- The cleared accumulator holds zero. -/
theorem pay1_apply : k1_pay1 (F := Ideal) (ix2 0 0) = 0 := by
  unfold k1_pay1
  exact Ideal.ofBits_zero_f32

/-- The terms of the tile at position `n`, and nothing past the grid. -/
def partAt (c : Dev nD) (n : ℕ) : EReal :=
  if h : n < cfg1.N then ∑ r : Fin 128, rowTerm V c ⟨n * 128 + r.val, row_lt ⟨n, h⟩ r⟩ else 0

/-- THE RUNNING SUM IN CLOSED FORM: after the body at position `n` the accumulator holds the terms of the tiles up
    to `n`, added in point order from zero. By induction on the position: the first point clears and adds, every
    later point adds to what the point before left. -/
theorem accAt1_eq (c : Dev nD) : ∀ (n : ℕ) (hn : n < cfg1.N),
    accAt1 V c n hn (ix2 0 0) = ∑ t ∈ Finset.range (n + 1), partAt V c t
  | 0, hn => by
    rw [accAt1_first V c ⟨0, hn⟩ rfl, acc1_first_eq, pay2_apply, pay1_apply, zero_add, tile_partial,
      Finset.sum_range_one, partAt, dif_pos hn]
  | n + 1, hn => by
    have hN : cfg1.N = 64 := N1_eq
    have h0 : ¬(⟨n + 1, hn⟩ : Fin cfg1.N).val % 64 = 0 := by dsimp only; omega
    rw [accAt1_later V c ⟨n + 1, hn⟩ h0, acc1_later_eq, pay2_apply, tile_partial, Finset.sum_range_succ _ (n + 1)]
    show accAt1 V c n _ (ix2 0 0) + _ = _
    rw [accAt1_eq c n (Nat.lt_of_succ_lt hn), partAt, dif_pos hn]

/-- The last position. -/
theorem last1_lt : 63 < cfg1.N := by rw [N1_eq]; decide

/-- The accumulator's block is its whole one-element array: what a write-back writes of contents `X` of the staging
    buffer is the array's block read off `X` itself. -/
theorem cut_eq_read4 (t : Fin cfg1.N) (X : Vec Ideal S1x1 .f32) :
    (cfg1.win 4).cut (grid1.coords t) X = ((cfg1.win 4).blk t).view.read (Elt Ideal) X := by
  obtain ⟨-, -, -, -, -, -, -, -, e0, e1, -⟩ := idx1_facts t
  funext j
  rw [View.read_apply]
  show X ((cfg1.win 4).xinj (grid1.coords t) j) = X (((cfg1.win 4).blk t).view.emb j)
  refine congrArg X (funext fun a => Fin.ext ?_)
  match a with
  | ⟨0, _⟩ => show (j 0).val = win1_4.index t (0 : Fin 2) * 1 + 1 * (j 0).val; rw [e0]; omega
  | ⟨1, _⟩ => show (j 1).val = win1_4.index t (1 : Fin 2) * 1 + 1 * (j 1).val; rw [e1]; omega

/-- The one write-back, at the last point, writes the running sum after that point. -/
theorem flushed4_eq (c : Dev nD) (t : Fin cfg1.N) (hf : (cfg1.win 4).flush t = true) :
    (dat1 V c).flushed 4 t = ((cfg1.win 4).blk t).view.read (Elt Ideal) (accAt1 V c 63 last1_lt) := by
  have h63 : t.val = 63 := by
    have h := (flush1_4 t).mp hf
    have hN : t.val < 64 := lt_of_lt_of_eq t.isLt N1_eq
    omega
  obtain rfl : t = ⟨63, last1_lt⟩ := Fin.ext h63
  show (cfg1.win 4).cut (grid1.coords ⟨63, last1_lt⟩) ((dat1 V c).after 4 ⟨63, last1_lt⟩) = _
  rw [after1_4]
  exact cut_eq_read4 ⟨63, last1_lt⟩ _

/-- So the accumulator's array ends holding the running sum after the last point: that point's block covers it. -/
theorem final4 (c : Dev nD) : (dat1 V c).arrAt 4 cfg1.N = accAt1 V c 63 last1_lt :=
  (dat1 V c).arrAt_eq_of_cover 4 (accAt1 V c 63 last1_lt) (flushed4_eq V c) fun i =>
    ⟨⟨63, last1_lt⟩, (flush1_4 _).mpr rfl, by
      obtain ⟨-, -, -, -, -, -, -, -, e0, e1, -⟩ := idx1_facts ⟨63, last1_lt⟩
      show i ∈ ((View.whole main_v7).slice (win1_4.rect ⟨63, last1_lt⟩)).set
      rw [View.set_slice_whole, Rect.mem_set_unit]
      intro a
      have h0 : (i 0 : Nat) < 1 := (i 0).isLt
      have h1 : (i 1 : Nat) < 1 := (i 1).isLt
      match a with
      | ⟨0, _⟩ => show win1_4.index ⟨63, last1_lt⟩ (0 : Fin 2) * 1 ≤ (i 0 : Nat) ∧ (i 0 : Nat) < win1_4.index ⟨63, last1_lt⟩ (0 : Fin 2) * 1 + 1
                  rw [e0]; omega
      | ⟨1, _⟩ => show win1_4.index ⟨63, last1_lt⟩ (1 : Fin 2) * 1 ≤ (i 1 : Nat) ∧ (i 1 : Nat) < win1_4.index ⟨63, last1_lt⟩ (1 : Fin 2) * 1 + 1
                  rw [e1]; omega⟩

/-- THE SECOND KERNEL'S RESULT: the accumulator's array ends holding the terms of every pair of rows, the 64 tiles
    of 128 rows regrouped into the sum over all 8192 rows. -/
theorem inter_final (c : Dev nD) :
    (dat1 V c).arrAt 4 cfg1.N (ix2 0 0)
      = ∑ i : Fin 8192, ∑ j : Fin 8192, Cert.Spec.pairTermOf (V c main_v5 (ix2 i 0)) (V c main_v6 (ix2 0 j))
          (∑ k : Fin 128, cen V c (ix2 i k) * cen V c (ix2 j k)) (i.val < j.val) := by
  rw [final4, accAt1_eq, Finset.sum_range]
  show _ = ∑ i : Fin 8192, rowTerm V c i
  rw [Cert.LibSumTiles.sum_tiles_64_128 (rowTerm V c)]
  refine Finset.sum_congr rfl fun t _ => ?_
  have ht : t.val < cfg1.N := lt_of_lt_of_eq t.isLt N1_eq.symm
  rw [partAt, dif_pos ht]

end Cert.KernelIdeal.Hand

end
-- ==== Proof.KI.Final.lean ====
/-
  The idealized kernel's two results are the two losses of the grouped samples.

  The centres the first region leaves are the groups' means; the host stretch between the regions turns them into the
  squared norms the second region reads; the second region's accumulated sum is then the sum of the pairs' terms and
  the first region's the sum of the samples' terms; the last host stretch divides each by its count.
-/
import proofs.«117935_j33621003993451_1_alg».proof.Proof.KI.HostValues
import proofs.«117935_j33621003993451_1_alg».proof.Proof.KI.Values0
import proofs.«117935_j33621003993451_1_alg».proof.Proof.KI.Values1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo
open scoped BigOperators

variable (m : (ℓ : Loc nD τ sig) → Buf (Elt Ideal) ℓ) (ρ : Dev nD → PrngReg) (c : Dev nD)

/-- The grouped samples the first region is entered with. -/
abbrev samples : Cert.Spec.Samples := V1 m ρ c main_v1

/-- The centres as the first region leaves them. -/
theorem centers_left (g : Fin 8192) (d : Fin 128) : V2 m ρ c main_v2_0 (ix2 g d) = Cert.Spec.center (samples m ρ c) g d := by
  show W2 m ρ c (Proc.devRef .tc (Pipeline.arrRef spec0 1)) (ix2 g d) = _
  rw [W2_arr]
  exact centers_final (V1 m ρ) c g d

/-- The centres as the second region finds them. -/
theorem centers_found (g : Fin 8192) (d : Fin 128) : V3 m ρ c main_v2_0 (ix2 g d) = Cert.Spec.center (samples m ρ c) g d := by
  rw [entry_centers]; exact centers_left m ρ c g d

/-- The squared norms' column holds each centre's squared norm. -/
theorem sqNorm_col (i : Fin 8192) : V3 m ρ c main_v5 (ix2 i 0) = Cert.Spec.sqNorm (samples m ρ c) i := by
  rw [entry_sqCol]
  refine (sqCol_at (V2 m ρ c main_v2_0) i).trans ?_
  unfold Cert.Spec.sqNorm
  refine Finset.sum_congr rfl fun d _ => ?_
  rw [centers_left]

/-- So does the row. -/
theorem sqNorm_row (j : Fin 8192) : V3 m ρ c main_v6 (ix2 0 j) = Cert.Spec.sqNorm (samples m ρ c) j := by
  rw [entry_sqRow, sqRow_at]; exact sqNorm_col m ρ c j

/-- THE INTER LOSS. -/
theorem kernel_inter : W5 m ρ c (Proc.devRef .tc main_v9) = fun _ => Cert.Spec.inter (samples m ρ c) := by
  funext i
  obtain rfl := eq_ix0 i
  rw [final_inter, quotient_at, V4_result, inter_final (V3 m ρ) c]
  unfold Cert.Spec.inter
  refine congrArg (fun z => Ideal.div z _) ?_
  refine Finset.sum_congr rfl fun i _ => Finset.sum_congr rfl fun j _ => ?_
  unfold Cert.Spec.pairTerm Cert.Spec.gram
  rw [sqNorm_col, sqNorm_row]
  refine congrArg (fun g => Cert.Spec.pairTermOf _ _ g _) (Finset.sum_congr rfl fun k _ => ?_)
  exact congrArg₂ (fun a b : EReal => a * b) (centers_found m ρ c i k) (centers_found m ρ c j k)

/-- THE INTRA LOSS. -/
theorem kernel_intra : W5 m ρ c (Proc.devRef .tc main_v11) = fun _ => Cert.Spec.intra (samples m ρ c) := by
  funext i
  obtain rfl := eq_ix0 i
  rw [final_intra, quotient_at]
  have h3 : V3 m ρ c main_v2_1 = V2 m ρ c main_v2_1 := by
    show StableHlo.after hostOps1 (W2 m ρ c) (Proc.devRef .tc main_v2_1) = _
    after_results
  have h : V4 m ρ c main_v2_1 = (dat0 (V1 m ρ) c).arrAt 2 cfg0.N := by
    rw [V4_rest m ρ c main_v2_1 (by decide), h3]
    exact W2_arr m ρ c 2
  rw [h, intra_final (V1 m ρ) c]
  rfl

end Cert.KernelIdeal.Hand

end
-- ==== Proof.RefSpec.lean ====
/-
  The reference computes the specification's two losses.

  The reference reads its argument as 8192 groups of 16 samples of 128 features. Operation by operation: the sum over a
  group's samples divided by sixteen is the group's centre; the row sums of the squared centres are the centres' squared
  norms; the product of the centres with their transpose holds the inner products of pairs of centres; the mask is set
  exactly where the row index is below the column index (an integer comparison on 32-bit words of naturals below 8192,
  which agrees with the comparison of the naturals); under the mask the clamped `|a|² + |b|² - 2 a·b` goes through the
  square root and the squared shortfall below one, and off the mask the term is zero; a sample's squared distance to its
  centre goes through the square root and the squared excess over the margin. Each total is zero plus the sum over every
  index, which is the double sum over the two coordinates, and each loss is that total over its count.

  Only the additive-monoid laws of the extended reals are used (`0 + s = s`, re-indexing a finite sum).
-/
import proofs.«117935_j33621003993451_1_alg».proof.Proof.Gen.ReferenceIdeal.Read
import proofs.«117935_j33621003993451_1_alg».proof.Proof.Spec

noncomputable section

namespace Cert.RefSpec

open Cert.ReferenceIdeal Cert.ReferenceIdeal.Read
open Idealize.ShloMosaic Idealize.ShloMosaic.ValueIdx
open scoped BigOperators

/-- The reference's argument: the samples as they arrive, before the two reshapes. -/
abbrev Arg : Type := (⟨S131072x64x1x1x2, .f32⟩ : BufTy).Contents (Elt Ideal)

/-- The grouped samples the reference works on: its argument after the two reshapes. -/
abbrev X (x0 : Arg) : Cert.Spec.Samples := Read.val_main_v1 (F := Ideal) x0

/-- The quotient of a group's feature sums by sixteen is the group's centre. -/
theorem center_eq (x0 : Arg) (g : Fin 8192) (d : Fin 128) :
    Read.val_main_v4 (F := Ideal) x0 (ix2 g d) = Cert.Spec.center (X x0) g d := by
  have e : ∀ k : Fin 16, idx_main_v2 (ix2 g d) k = ix3 g k d := fun k =>
    funext fun a => Fin.ext (by match a with | ⟨0, _⟩ => rfl | ⟨1, _⟩ => rfl | ⟨2, _⟩ => rfl)
  rw [val_main_v4_apply, val_main_v2_apply, val_main_v3_apply, val_main_cst_0_apply, val_main_cst_apply]
  simp only [e, Ideal.hostDivf_def, Ideal.ofBits_def, Ideal.ofBits_zero_f32, zero_add]
  rfl

/-- The row sum of the squared centre is the centre's squared norm. -/
theorem sqNorm_eq (x0 : Arg) (g : Fin 8192) :
    Read.val_main_v6 (F := Ideal) x0 (ix1 g) = Cert.Spec.sqNorm (X x0) g := by
  have e : ∀ k : Fin 128, idx_main_v6 (ix1 g) k = ix2 g k := fun k =>
    funext fun a => Fin.ext (by match a with | ⟨0, _⟩ => rfl | ⟨1, _⟩ => rfl)
  rw [val_main_v6_apply, val_main_cst_1_apply]
  simp only [e, val_main_v5_apply, center_eq, Ideal.mulf_def, Ideal.ofBits_def, Ideal.ofBits_zero_f32, zero_add]
  rfl

/-- The product of the centres with their transpose holds the inner products of pairs of centres. -/
theorem gram_eq (x0 : Arg) (i j : Fin 8192) :
    Read.val_main_v8 (F := Ideal) x0 (ix2 i j) = Cert.Spec.gram (X x0) i j := by
  have el : ∀ k : Fin 128, lidx_main_v8 (ix2 i j) k = ix2 i k := fun k =>
    funext fun a => Fin.ext (by match a with | ⟨0, _⟩ => rfl | ⟨1, _⟩ => rfl)
  have er : ∀ k : Fin 128, idx_main_v7 (ridx_main_v8 (ix2 i j) k) = ix2 j k := fun k =>
    funext fun a => Fin.ext (by match a with | ⟨0, _⟩ => rfl | ⟨1, _⟩ => rfl)
  rw [val_main_v8_apply]
  simp only [val_main_v7_apply, el, er, center_eq]
  rfl

/-- A 32-bit word of a natural below 8192 reads, as a signed integer, that natural. -/
theorem toInt_ofNat_small (a : Nat) (ha : a < 8192) : (BitVec.ofNat 32 a).toInt = (a : Int) := by
  have h : (BitVec.ofNat 32 a).toNat = a := by
    rw [BitVec.toNat_ofNat]; omega
  rw [BitVec.toInt_eq_toNat_of_lt (by rw [h]; omega), h]

/-- On 32-bit words of naturals below 8192 the signed "not less" is the naturals' "not less". -/
theorem sge_ofNat (a b : Nat) (ha : a < 8192) (hb : b < 8192) :
    IntOp.cmpi .sge (BitVec.ofNat 32 a) (BitVec.ofNat 32 b) = if a < b then 0#1 else 1#1 := by
  unfold IntOp.cmpi
  simp only [BitVec.sle, toInt_ofNat_small a ha, toInt_ofNat_small b hb]
  by_cases h : a < b
  · rw [if_pos h, decide_eq_false (by omega)]; rfl
  · rw [if_neg h, decide_eq_true (by omega)]; rfl

/-- The upper-triangle mask: set exactly where the row is before the column. -/
theorem mask_eq (i j : Fin 8192) :
    Read.val_main_v20 (F := Ideal) (ix2 i j) = if i.val < j.val then 1#1 else 0#1 := by
  rw [val_main_v20_apply, val_main_call0_v4_apply, val_main_call0_v5_apply, val_main_v19_apply,
    val_main_call0_v2_apply, val_main_call0_v0_apply, val_main_call0_v1_apply, val_main_call0_v3_apply,
    val_main_call0_c_apply, val_main_call0_c_0_apply, val_main_c_apply]
  show Scalar.select (IntOp.cmpi .sge (IntOp.addi (BitVec.ofNat 32 i.val) 0#32) (BitVec.ofNat 32 j.val)) 0#1 1#1 = _
  have h0 : IntOp.addi (BitVec.ofNat 32 i.val) 0#32 = BitVec.ofNat 32 i.val := by
    unfold IntOp.addi; exact BitVec.add_zero _
  rw [h0, sge_ofNat i.val j.val i.isLt j.isLt]
  by_cases h : i.val < j.val
  · rw [if_pos h, if_pos h]; exact select_zero _ _
  · rw [if_neg h, if_neg h]; exact select_one _ _

/-- The clamped squared distance of two centres, through their squared norms and inner product. -/
theorem sqDist_eq (x0 : Arg) (i j : Fin 8192) :
    Read.val_main_v18 (F := Ideal) x0 (ix2 i j)
      = max (Cert.Spec.sqNorm (X x0) i + Cert.Spec.sqNorm (X x0) j
          - Ideal.ofBits .f32 0x40000000#32 * Cert.Spec.gram (X x0) i j) 0 := by
  have ea : idx_main_v9 (idx_main_v11 (ix2 i j)) = ix1 i :=
    funext fun a => Fin.ext (by match a with | ⟨0, _⟩ => rfl)
  have eb : idx_main_v10 (idx_main_v12 (ix2 i j)) = ix1 j :=
    funext fun a => Fin.ext (by match a with | ⟨0, _⟩ => rfl)
  rw [val_main_v18_apply, val_main_v16_apply, val_main_v13_apply, val_main_v11_apply, val_main_v9_apply,
    val_main_v12_apply, val_main_v10_apply, val_main_v15_apply, val_main_v14_apply, val_main_cst_2_apply,
    val_main_v17_apply, val_main_cst_3_apply, ea, eb, sqNorm_eq, sqNorm_eq, gram_eq]
  simp only [Ideal.maximumf_def, Ideal.subf_def, Ideal.addf_def, Ideal.mulf_def, Ideal.ofBits_def,
    Ideal.ofBits_zero_f32]

/-- A pair of groups' term of the inter loss. -/
theorem pairTerm_eq (x0 : Arg) (i j : Fin 8192) :
    Read.val_main_v28 (F := Ideal) x0 (ix2 i j) = Cert.Spec.pairTerm (X x0) i j := by
  rw [val_main_v28_apply, mask_eq]
  unfold Cert.Spec.pairTerm Cert.Spec.pairTermOf
  by_cases h : i.val < j.val
  · rw [if_pos h, if_pos h, select_one, val_main_v27_apply, val_main_v26_apply, val_main_v24_apply,
      val_main_v23_apply, val_main_cst_5_apply, val_main_v22_apply, val_main_v21_apply, mask_eq, if_pos h,
      select_one, sqDist_eq, val_main_v25_apply, val_main_cst_6_apply]
    simp only [Ideal.maximumf_def, Ideal.subf_def, Ideal.mulf_def, Ideal.ofBits_def, Ideal.ofBits_zero_f32,
      Ideal.hostUnary_sqrt_def]
    rfl
  · rw [if_neg h, if_neg h, select_zero, val_main_call2_v1_apply, val_main_call2_v0_apply, val_main_cst_7_apply]
    simp only [Ideal.ofBits_def, Ideal.ofBits_zero_f32]

/-- A sample's term of the intra loss: the squared excess of its distance to its group's centre. -/
theorem sampleTerm_eq (x0 : Arg) (g : Fin 8192) (p : Fin 16) :
    Read.val_main_v41 (F := Ideal) x0 (ix2 g p) = Cert.Spec.sampleTermOf (Cert.Spec.group (X x0) g) p := by
  have e : ∀ k : Fin 128, idx_main_v35 (ix2 g p) k = ix3 g p k := fun k =>
    funext fun a => Fin.ext (by match a with | ⟨0, _⟩ => rfl | ⟨1, _⟩ => rfl | ⟨2, _⟩ => rfl)
  have ec : ∀ k : Fin 128, idx_main_v31 (idx_main_v32 (ix3 g p k)) = ix2 g k := fun k =>
    funext fun a => Fin.ext (by match a with | ⟨0, _⟩ => rfl | ⟨1, _⟩ => rfl)
  rw [val_main_v41_apply, val_main_v40_apply, val_main_v38_apply, val_main_v36_apply, val_main_v35_apply,
    val_main_cst_10_apply, val_main_v37_apply, val_main_cst_11_apply, val_main_v39_apply, val_main_cst_12_apply]
  simp only [e, val_main_v34_apply, val_main_v33_apply, val_main_v32_apply, val_main_v31_apply, ec, center_eq,
    Ideal.maximumf_def, Ideal.subf_def, Ideal.mulf_def, Ideal.ofBits_def, Ideal.ofBits_zero_f32,
    Ideal.hostUnary_sqrt_def, zero_add]
  rfl

/-- The reference's first result is the inter loss of its grouped samples. -/
theorem ref_inter (x0 : (⟨S131072x64x1x1x2, .f32⟩ : BufTy).Contents (Elt Ideal)) :
    Read.val_main_v30 (F := Ideal) x0 = fun _ => Cert.Spec.inter (Read.val_main_v1 (F := Ideal) x0) := by
  funext i
  rw [val_main_v30_apply, val_main_v29_apply, val_main_cst_8_apply, val_main_cst_9_apply, sum_idx2]
  simp only [pairTerm_eq, Ideal.hostDivf_def, Ideal.ofBits_def, Ideal.ofBits_zero_f32, zero_add]
  rfl

/-- The reference's second result is the intra loss of its grouped samples. -/
theorem ref_intra (x0 : (⟨S131072x64x1x1x2, .f32⟩ : BufTy).Contents (Elt Ideal)) :
    Read.val_main_v43 (F := Ideal) x0 = fun _ => Cert.Spec.intra (Read.val_main_v1 (F := Ideal) x0) := by
  funext i
  rw [val_main_v43_apply, val_main_v42_apply, val_main_cst_13_apply, val_main_cst_14_apply, sum_idx2]
  simp only [sampleTerm_eq, Ideal.hostDivf_def, Ideal.ofBits_def, Ideal.ofBits_zero_f32, zero_add]
  rfl

end Cert.RefSpec

end
-- ==== Proof.lean ====
/-
  The certificate: a fused centre-and-hinge-loss kernel against its plain reference, on the extended reals.

  The input is 8192 groups of 16 samples of 128 features. Both programs compute each group's centre (the mean of its
  samples), the INTRA loss — the mean over all samples of the squared excess over a margin of the sample's distance to
  its group's centre — and the INTER loss — the mean over all pairs of groups `i < j` of the squared shortfall below one
  of the distance between their centres, the squared distance formed as `|a|² + |b|² - 2 a·b` and clamped at zero.

  The kernel does this in two pipelined passes with host operations between them. The first pass walks the groups in
  16 tiles of 512: it stores each tile's centres and adds the tile's share of the intra sum into a one-element
  accumulator it clears at the first tile. The host then forms the centres' squared norms. The second pass walks the
  centres in 64 tiles of 128 rows against all 8192 centres, forming the inner products by a matrix product, and adds
  each tile's share of the inter sum into another one-element accumulator. The reference computes the same terms over
  whole arrays and sums each loss in one reduction.

  On the extended reals every operation of the two programs is the same operation of the same operands (a change of
  float format is the identity, and the matrix product against the transposed centres is the same sum of products);
  what differs is only how the two big sums are grouped — by rows, then by tiles, then across grid points, against
  once over both axes. Addition of extended reals is commutative and associative, so the groupings agree, and no
  finiteness of the inputs is used.

  The frames: each program terminates without a fault and leaves its argument as it found it. For the kernel this is
  shown through its run as five segments — host reshapes, the first region, the squared norms, the second region, the
  final quotients — each region by its pipeline's proof data and its body's two control cases (the accumulator
  cleared, or added to). The same run names the contents of every buffer at the end, from which the two results are
  read; the word-level kernel's frame is the same text at the word-level instance.
-/
import proofs.«117935_j33621003993451_1_alg».proof.Defs
import proofs.«117935_j33621003993451_1_alg».proof.Proof.Gen.Kernel
import proofs.«117935_j33621003993451_1_alg».proof.Proof.Gen.KernelIdeal
import proofs.«117935_j33621003993451_1_alg».proof.Proof.Gen.ReferenceIdeal
import proofs.«117935_j33621003993451_1_alg».proof.Proof.Gen.Pre_finite_inputs
import proofs.«117935_j33621003993451_1_alg».proof.Proof.Gen.ReferenceIdeal.Run
import proofs.«117935_j33621003993451_1_alg».proof.Proof.Gen.ReferenceIdeal.Read
import proofs.«117935_j33621003993451_1_alg».proof.Proof.K.Run
import proofs.«117935_j33621003993451_1_alg».proof.Proof.KI.Final
import proofs.«117935_j33621003993451_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel terminates, faults nowhere and leaves its argument unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- So does the idealized reference: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The kernel's grouped samples are the reference's: both reshape the argument the same way twice. -/
theorem samples_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Hand.samples m ρ c
      = Cert.ReferenceIdeal.Read.val_main_v1 (F := Ideal) (m ((c.tc : Thread Cert.KernelIdeal.nD Cert.KernelIdeal.τ).loc Cert.KernelIdeal.main_arg0)) := by
  show Cert.KernelIdeal.Hand.V1 m ρ c Cert.KernelIdeal.main_v1 = _
  rw [Cert.KernelIdeal.Hand.entry_samples]
  rfl

/-- From memories agreeing on the argument both idealized programs run, end with the argument unchanged, and end
    with the same two results: the two losses of the grouped samples. -/
theorem algebraic : Cert.algebraic_KernelIdeal_ReferenceIdeal := by
  intro m ρ m' ρ' _ hagree
  refine ⟨fun c => Cert.KernelIdeal.Hand.W5 m ρ c (Proc.devRef .tc Cert.KernelIdeal.main_v9),
    fun c => Cert.KernelIdeal.Hand.W5 m ρ c (Proc.devRef .tc Cert.KernelIdeal.main_v11), ?_, ?_⟩
  · exact (θ_run Cert.KernelIdeal.defs _ _).mono (fun _ h c =>
      ⟨h c _ (Cert.KernelIdeal.Hand.mem_uc Cert.KernelIdeal.main_v9 (by decide)),
       h c _ (Cert.KernelIdeal.Hand.mem_uc Cert.KernelIdeal.main_v11 (by decide)),
       (h c _ (Cert.KernelIdeal.Hand.mem_uc Cert.KernelIdeal.main_arg0 (by decide))).trans (Cert.KernelIdeal.Hand.W5_main_arg0 m ρ c)⟩)
      (Cert.KernelIdeal.Hand.run_all (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v30_eq, Cert.RefSpec.ref_inter, hagree c]
      exact ((Cert.KernelIdeal.Hand.kernel_inter m ρ c).trans (congrArg (fun s _ => Cert.Spec.inter s) (samples_eq m ρ c))).symm
    · rw [(h c).2.1, Cert.ReferenceIdeal.Read.val_main_v43_eq, Cert.RefSpec.ref_intra, hagree c]
      exact ((Cert.KernelIdeal.Hand.kernel_intra m ρ c).trans (congrArg (fun s _ => Cert.Spec.intra s) (samples_eq m ρ c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
